-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S2048 : Shape := ⟨1, ![2048]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S40 .f32) (main_arg5 : FVec F S800000 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x256 .f32) (main_arg1 : FVec F S256x128 .f32) (main_arg2 : FVec F S128 .f32) (main_arg3 : FVec F S128x40 .f32) (main_arg4 : FVec F S40 .f32) (main_arg5 : FVec F S800000 .f32) (main_arg6 : IVec S800000 32) (main_arg7 : IVec S800000 32) (main_arg8 : IVec S2048 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg5 main_v13 main_v16
-- ==== Kernel.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S2048 : Shape := ⟨1, ![2048]⟩
abbrev S50000x128 : Shape := ⟨2, ![50000, 128]⟩
abbrev S1000x256 : Shape := ⟨2, ![1000, 256]⟩
abbrev S1000x128 : Shape := ⟨2, ![1000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S1000x40 : Shape := ⟨2, ![1000, 40]⟩
abbrev S800000x40 : Shape := ⟨2, ![800000, 40]⟩
abbrev S1x40 : Shape := ⟨2, ![1, 40]⟩
abbrev S1000 : Shape := ⟨1, ![1000]⟩
abbrev S1000x1 : Shape := ⟨2, ![1000, 1]⟩
abbrev S2048x1 : Shape := ⟨2, ![2048, 1]⟩
abbrev S2048x40 : Shape := ⟨2, ![2048, 40]⟩

abbrev nBuf : Space → Nat
  | .hbm => 56
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S2048, .i32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x40, .f32⟩
  | .hbm, ⟨29, _⟩ => ⟨S800000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x40, .f32⟩
  | .hbm, ⟨39, _⟩ => ⟨S800000x40, .f32⟩
  | .hbm, ⟨40, _⟩ => ⟨S800000x40, .f32⟩
  | .hbm, ⟨41, _⟩ => ⟨S_, .f32⟩
  | .hbm, ⟨42, _⟩ => ⟨S50000x40, .f32⟩
  | .hbm, ⟨43, _⟩ => ⟨S800000x1, .i32⟩
  | .hbm, ⟨44, _⟩ => ⟨S50000x40, .f32⟩
  | .hbm, ⟨45, _⟩ => ⟨S1x40, .f32⟩
  | .hbm, ⟨46, _⟩ => ⟨S50000x40, .f32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S2048x40, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x40, .f32⟩
  | .local _ .vmem, ⟨13, _⟩ => ⟨S1000x40, .f32⟩
  | .local _ .vmem, ⟨14, _⟩ => ⟨S1000x40, .f32⟩
  | .local _ .vmem, ⟨15, _⟩ => ⟨S1000x40, .f32⟩
  | .local _ .vmem, ⟨16, _⟩ => ⟨S1000x40, .f32⟩
  | .local _ .vmem, ⟨17, _⟩ => ⟨S1x40, .f32⟩
  | .local _ .vmem, ⟨18, _⟩ => ⟨S1000x40, .f32⟩
  | .local _ .vmem, ⟨19, _⟩ => ⟨S1000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x40_S128x40_0_0 : ∀ a, (![0, 0] : Fin 2 → Nat) a + S128x40.size a ≤ S128x40.size a
  h_S128x40 : 0 < S128x40.numel
  inb_S1000x40_S1000x40_0_0 : ∀ a, (![0, 0] : Fin 2 → Nat) a + S1000x40.size a ≤ S1000x40.size a
  h_S1000x40 : 0 < S1000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S1000x40_S1000x40 : S1000x40.ShapeCasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  reduces_S1000x40_S1000 : S1000x40.Reduces [1] S1000
  shapeCasts_S1000_S1000x1 : S1000.ShapeCasts S1000x1
  broadcasts_S1000x1_S1000x40 : S1000x1.Broadcasts S1000x40
  bcast_S_S2048 : S_.BroadcastsInDim S2048 (![] : Fin 0 → Fin S2048.rank)
  bcast_S2048_S2048x1_0 : S2048.BroadcastsInDim S2048x1 (![0] : Fin 1 → Fin S2048x1.rank)
  dot_S1000x256_S256x128_S1000x128_1_0_0_1_n_n_wf : DotDims.WF S1000x256 S256x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x40_S1000x40_1_0_0_1_n_n_wf : DotDims.WF S1000x128 S128x40 S1000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  gather_S50000x40_S2048x1_S2048x40_1_0_n_n_0_1_140_wf : GatherDims.WF S50000x40 S2048x1 S2048x40 [1] [0] [] [0] [] 1 ![1, 40]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x40.size a ≤ S50000x40.size a
  hwx2_2 : ∀ i : grid2.Coords, EltTy.bits .f32 = 32 ∨ (Rect.block (s := S50000x40) S1000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x40.size a ≤ S50000x40.size a
  hwx3_0 : ∀ i : grid3.Coords, EltTy.bits .f32 = 32 ∨ (Rect.block (s := S50000x40) S1000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x40.size a ≤ S50000x40.size a
  hwx3_2 : ∀ i : grid3.Coords, EltTy.bits .f32 = 32 ∨ (Rect.block (s := S50000x40) S1000x40.size (cc3_transform_2 i) (hinb3_2 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf
def gather_S50000x40_S2048x1_S2048x40_1_0_n_n_0_1_140 : GatherDims S50000x40 S2048x1 S2048x40 where
  offsetDims := [1]
  collapsedSliceDims := [0]
  operandBatchingDims := []
  startIndicesBatchingDims := []
  startIndexMap := [0]
  indexVectorDim := 1
  sliceSizes := ![1, 40]
  wf := gather_S50000x40_S2048x1_S2048x40_1_0_n_n_0_1_140_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S1000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S2048 : Shape := ⟨1, ![2048]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩
abbrev S2048x1 : Shape := ⟨2, ![2048, 1]⟩
abbrev S2048x40 : Shape := ⟨2, ![2048, 40]⟩

abbrev nBuf : Space → Nat
  | .hbm => 76
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S2048, .i32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x40, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x40, .f32⟩
  | .hbm, ⟨43, _⟩ => ⟨S800000x40, .f32⟩
  | .hbm, ⟨44, _⟩ => ⟨S800000x40, .f32⟩
  | .hbm, ⟨45, _⟩ => ⟨S_, .f32⟩
  | .hbm, ⟨46, _⟩ => ⟨S50000x40, .f32⟩
  | .hbm, ⟨47, _⟩ => ⟨S800000x1, .i32⟩
  | .hbm, ⟨48, _⟩ => ⟨S50000x40, .f32⟩
  | .hbm, ⟨49, _⟩ => ⟨S1x40, .f32⟩
  | .hbm, ⟨50, _⟩ => ⟨S50000x40, .f32⟩
  | .hbm, ⟨51, _⟩ => ⟨S50000x40, .f32⟩
  | .hbm, ⟨52, _⟩ => ⟨S_, .f32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x40, .f32⟩
  | .hbm, ⟨59, _⟩ => ⟨S50000x40, .f32⟩
  | .hbm, ⟨60, _⟩ => ⟨S50000x40, .f32⟩
  | .hbm, ⟨61, _⟩ => ⟨S_, .f32⟩
  | .hbm, ⟨62, _⟩ => ⟨S50000, .f32⟩
  | .hbm, ⟨63, _⟩ => ⟨S50000x1, .f32⟩
  | .hbm, ⟨64, _⟩ => ⟨S50000x1, .f32⟩
  | .hbm, ⟨65, _⟩ => ⟨S50000x40, .f32⟩
  | .hbm, ⟨66, _⟩ => ⟨S50000x40, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_call1_cst_0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_cst_1 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_v35 : Ref sig .tc := ⟨.hbm, 66, rfl⟩
abbrev main_c_4 : Ref sig .tc := ⟨.hbm, 67, rfl⟩
abbrev main_v36 : Ref sig .tc := ⟨.hbm, 68, rfl⟩
abbrev main_v37 : Ref sig .tc := ⟨.hbm, 69, rfl⟩
abbrev main_c_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  bcast_S_S2048 : S_.BroadcastsInDim S2048 (![] : Fin 0 → Fin S2048.rank)
  bcast_S2048_S2048x1_0 : S2048.BroadcastsInDim S2048x1 (![0] : Fin 1 → Fin S2048x1.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  gather_S50000x40_S2048x1_S2048x40_1_0_n_n_0_1_140_wf : GatherDims.WF S50000x40 S2048x1 S2048x40 [1] [0] [] [0] [] 1 ![1, 40]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf
def gather_S50000x40_S2048x1_S2048x40_1_0_n_n_0_1_140 : GatherDims S50000x40 S2048x1 S2048x40 where
  offsetDims := [1]
  collapsedSliceDims := [0]
  operandBatchingDims := []
  startIndicesBatchingDims := []
  startIndexMap := [0]
  indexVectorDim := 1
  sliceSizes := ![1, 40]
  wf := gather_S50000x40_S2048x1_S2048x40_1_0_n_n_0_1_140_wf

class Facts : Prop extends Facts₀ where

variable [Facts]
-- ==== Proof.KernelRun.lean ====
/-
  The idealized kernel's run, with nothing forgotten.

  @main is seven segments: the first matmul's region, the host stretch that gathers the rows `support[src]`,
  weights them and scatter-adds them by `dst`, the bias-and-ReLU region, the second matmul's region, the second
  gather / weight / scatter-add stretch, the bias-and-log-softmax region, and the closing row gather by `idx`.
  The buffer contents at each boundary are a fold from the launch memory (`W0` … `W7`): a host stretch applies
  its operations to the contents it is entered with, a region replaces its three arrays by what its write-backs leave.
  Every weakly fair execution terminates with EVERY unscoped buffer at the last fold `W7` — so in particular
  the result buffer is `W7` read at it, and the frame claim is the same run read at the arguments.
-/
import proofs.«110425_j50302656971586_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents `W7`: the seven segments chained from the launch, the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer after the run is the last boundary's contents read at it. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)
    (run_all m ρ)

end Cert.KernelIdeal.Whole

end
-- ==== Proof.Stages.lean ====
/-
  The stages of the two-layer graph convolution, each as ONE function of whole arrays.

  Both programs compute, for node features `x`, weights `W1`, `W2`, biases `b1`, `b2` and a weighted edge list
  (`src`, `dst`, `w`):
      S1 = x · W1                         (a dense product, rows = nodes)
      A1 = Σ_{e : dst e = i} w e · S1[src e]   (gather the source rows, weight them, add them up by destination)
      h  = max (A1 + b1) 0
      S2 = h · W2 ,  A2 = the same edge sum of S2
      y  = A2 + b2 ,  z = y − max_row y ,  out = z − log Σ_row exp z
  and return the rows `out[idx]`. A negative row index counts from the end (`i + 50000`), as array indexing does.
  The edge sum and the closing row pick are the SAME host operations in both programs; the dense products, the
  bias-and-ReLU and the bias-and-log-softmax are host operations in one program and tiled kernels in the other. The
  functions below are the host operations, composed; the kernels' regions are proved equal to them elsewhere.
-/
import proofs.«110425_j50302656971586_1_alg».proof.Proof.Gen.ReferenceIdeal
import Idealize.ShloMosaic.PureOps.Ideal

noncomputable section

namespace Cert.Stages

open Cert.ReferenceIdeal Cert.ReferenceIdeal.Gen Idealize.ShloMosaic Idealize.ShloMosaic.TcCoe

variable {F : FTy → Type} [FloatOps F]

/-- The contents of a buffer of floats, resp. of 32-bit integers, of a shape. -/
abbrev Fl (F : FTy → Type) (s : Shape) := (⟨s, .f32⟩ : BufTy).Contents (Elt F)
abbrev In (F : FTy → Type) (s : Shape) := (⟨s, .i32⟩ : BufTy).Contents (Elt F)

/-- `x · W1`: rows of 256 features against the 256 × 128 weights. -/
def dense1 (x : Fl F S50000x256) (w : Fl F S256x128) : Fl F S50000x128 :=
  Host.dotGeneral dot_S50000x256_S256x128_S50000x128_1_0_0_1_n_n none x w

/-- `h · W2`: rows of 128 hidden features against the 128 × 40 weights. -/
def dense2 (h : Fl F S50000x128) (w : Fl F S128x40) : Fl F S50000x40 :=
  Host.dotGeneral dot_S50000x128_S128x40_S50000x40_1_0_0_1_n_n none h w

/-- A row index per edge, negative ones counted from the end, as a column. -/
def wrapEdge (i : In F S800000) : In F S800000x1 :=
  broadcastInDim S800000x1 ![0] bcast_S800000_S800000x1_0
    (select ((cmpi .slt : In F S800000 → In F S800000 → (⟨S800000, .i1⟩ : BufTy).Contents (Elt F)) i
        (broadcastInDim S800000 ![] bcast_S_S800000 (constantI S_ 32 0#32)))
      ((addi : In F S800000 → In F S800000 → In F S800000) i (broadcastInDim S800000 ![] bcast_S_S800000 (constantI S_ 32 50000#32))) i)

/-- The edge sum over rows of width 128: row `i` of the result adds `w e · s[src e]` over the edges with `dst e = i`. -/
def edgeSum128 (s : Fl F S50000x128) (w : Fl F S800000) (src dst : In F S800000) : Fl F S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    ((mulf : Fl F S800000x128 → Fl F S800000x128 → Fl F S800000x128)
      (broadcastInDim S800000x128 ![0, 1] bcast_S800000x1_S800000x128_0_1 (broadcastInDim S800000x1 ![0] bcast_S800000_S800000x1_0 w))
      (Host.gather gather_S50000x128_S800000x1_S800000x128_1_0_n_n_0_1_1128 s (wrapEdge src)))

/-- The edge sum over rows of width 40. -/
def edgeSum40 (s : Fl F S50000x40) (w : Fl F S800000) (src dst : In F S800000) : Fl F S50000x40 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 dst)
    ((mulf : Fl F S800000x40 → Fl F S800000x40 → Fl F S800000x40)
      (broadcastInDim S800000x40 ![0, 1] bcast_S800000x1_S800000x40_0_1 (broadcastInDim S800000x1 ![0] bcast_S800000_S800000x1_0 w))
      (Host.gather gather_S50000x40_S800000x1_S800000x40_1_0_n_n_0_1_140 s (wrapEdge src)))

/-- `max (a + b) 0`, the bias a row of 128 laid under every row of `a`. -/
def biasRelu (a : Fl F S50000x128) (b : Fl F S1x128) : Fl F S50000x128 :=
  (maximumf : Fl F S50000x128 → Fl F S50000x128 → Fl F S50000x128)
    ((addf : Fl F S50000x128 → Fl F S50000x128 → Fl F S50000x128) a (broadcastInDim S50000x128 ![0, 1] bcast_S1x128_S50000x128_0_1 b))
    (broadcastInDim S50000x128 ![] bcast_S_S50000x128 (constant S_ .f32 0x00000000#32))

/-- The log-softmax of each row of a 50000 × 40 array: `z − log Σ exp z` with `z = y −` the row's maximum. -/
def logSoftmaxRows (y : Fl F S50000x40) : Fl F S50000x40 :=
  let mx : Fl F S50000 := (maximumf : Fl F S50000 → Fl F S50000 → Fl F S50000)
    (broadcastInDim S50000 ![] bcast_S_S50000 (constant S_ .f32 0xFF800000#32))
    (Host.reduce FloatOps.maximumf y (constant S_ .f32 0xFF800000#32) reducesTo_S50000x40_S50000_d1 h_S_)
  let z : Fl F S50000x40 := (subf : Fl F S50000x40 → Fl F S50000x40 → Fl F S50000x40) y
    (broadcastInDim S50000x40 ![0, 1] bcast_S50000x1_S50000x40_0_1 (broadcastInDim S50000x1 ![0] bcast_S50000_S50000x1_0 mx))
  let s : Fl F S50000 := Host.reduceAdd (Host.exp z : Fl F S50000x40) (constant S_ .f32 0x00000000#32) reducesTo_S50000x40_S50000_d1 h_S_
  (subf : Fl F S50000x40 → Fl F S50000x40 → Fl F S50000x40) z
    (broadcastInDim S50000x40 ![0, 1] bcast_S50000x1_S50000x40_0_1
      (Host.log (broadcastInDim S50000x1 ![0] bcast_S50000_S50000x1_0 s : Fl F S50000x1)))

/-- The bias a row of 40 laid under every row of `a`, then the rows' log-softmax. -/
def biasLogSoftmax (a : Fl F S50000x40) (b : Fl F S1x40) : Fl F S50000x40 :=
  logSoftmaxRows ((addf : Fl F S50000x40 → Fl F S50000x40 → Fl F S50000x40) a (broadcastInDim S50000x40 ![0, 1] bcast_S1x40_S50000x40_0_1 b))

/-- The rows `idx` of a 50000 × 40 array, negative indices counted from the end. -/
def pickRows (a : Fl F S50000x40) (idx : In F S2048) : Fl F S2048x40 :=
  Host.gather gather_S50000x40_S2048x1_S2048x40_1_0_n_n_0_1_140 a
    (broadcastInDim S2048x1 ![0] bcast_S2048_S2048x1_0
      (select ((cmpi .slt : In F S2048 → In F S2048 → (⟨S2048, .i1⟩ : BufTy).Contents (Elt F)) idx
          (broadcastInDim S2048 ![] bcast_S_S2048 (constantI S_ 32 0#32)))
        ((addi : In F S2048 → In F S2048 → In F S2048) idx (broadcastInDim S2048 ![] bcast_S_S2048 (constantI S_ 32 50000#32))) idx))

/-- A vector of 128, resp. 40, as a one-row array. -/
def row128 (b : Fl F S128) : Fl F S1x128 := broadcastInDim S1x128 ![1] bcast_S128_S1x128_1 b
def row40 (b : Fl F S40) : Fl F S1x40 := broadcastInDim S1x40 ![1] bcast_S40_S1x40_1 b

/-- The whole forward pass. -/
def forward (x : Fl F S50000x256) (w1 : Fl F S256x128) (b1 : Fl F S128) (w2 : Fl F S128x40) (b2 : Fl F S40)
    (w : Fl F S800000) (src dst : In F S800000) (idx : In F S2048) : Fl F S2048x40 :=
  pickRows (biasLogSoftmax (edgeSum40 (dense2 (biasRelu (edgeSum128 (dense1 x w1) w src dst) (row128 b1)) w2) w src dst) (row40 b2)) idx

end Cert.Stages

end
-- ==== Proof.DenseBlocks.lean ====
/-
  The two dense products, block by block.

  A block of 1000 rows of `x · W` depends on the same 1000 rows of `x` only: entry (r, c) of the block's product is the sum
  over the contracted coordinate k of x(r, k) · W(k, c), and so is entry (t·1000 + r, c) of the whole product. A change of
  float format is the identity on the extended reals, and adding into a zero accumulator adds nothing, so the tiled
  product with narrowed operands IS the plain product's block.
-/
import proofs.«110425_j50302656971586_1_alg».proof.Proof.Gen.KernelIdeal.Skeleton
import proofs.«110425_j50302656971586_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DenseBlocks

open Cert.KernelIdeal Cert.KernelIdeal.Gen Idealize.ShloMosaic Idealize.ShloMosaic.TcCoe Idealize.ShloMosaic.ValueIdx
open Cert.Stages (Fl)

/-! ## The four products' dimension numbers

Each of the four products contracts axis 1 of its left operand against axis 0 of its right operand, with no batch axis:
a block product 1000 × 256 by 256 × 128 and the whole 50000 × 256 by 256 × 128 for the first layer, a block product
1000 × 128 by 128 × 40 and the whole 50000 × 128 by 128 × 40 for the second. The names below only shorten the records. -/

/-- The first layer's block product: rows of 256 against 256 × 128. -/
abbrev kDot1 : DotDims S1000x256 S256x128 S1000x128 := Cert.KernelIdeal.dot_S1000x256_S256x128_S1000x128_1_0_0_1_n_n
/-- The second layer's block product: rows of 128 against 128 × 40. -/
abbrev kDot2 : DotDims S1000x128 S128x40 S1000x40 := Cert.KernelIdeal.dot_S1000x128_S128x40_S1000x40_1_0_0_1_n_n
/-- The first layer's whole product, 50000 rows. -/
abbrev rDot1 : DotDims S50000x256 S256x128 S50000x128 := Cert.ReferenceIdeal.dot_S50000x256_S256x128_S50000x128_1_0_0_1_n_n
/-- The second layer's whole product, 50000 rows. -/
abbrev rDot2 : DotDims S50000x128 S128x40 S50000x40 := Cert.ReferenceIdeal.dot_S50000x128_S128x40_S50000x40_1_0_0_1_n_n

/-! ## Each product's sum, re-indexed by the contracted coordinate

For each record: where the two operands are read at output index (r, c) and contraction index q — the left one at
(r, q), the right one at (q, c) — and then the sum over the one-axis contraction index set as the sum over
k = 0 … n − 1 of x(r, k) · w(k, c). -/

/-! ### The first layer's block product -/

/-- In the 1000 × 256 by 256 × 128 product, the left operand's index at output index `i` and contraction index `q` keeps the
    output's row: its coordinate 0 is `i 0` (axis 0 of the left operand is its one free axis), -/
theorem kDot1_lhs_0 (i : S1000x128.Idx) (q : kDot1.contr.Idx) : (kDot1.lhsIdx i q 0).val = (i 0).val := by
  unfold DotDims.lhsIdx
  rw [dif_neg (show ¬(0 : Fin S1000x256.rank) ∈ kDot1.lhsBatch by decide), dif_pos (show (0 : Fin S1000x256.rank) ∈ kDot1.lhsNonContracting by decide)]
  rfl
/-- … and its coordinate 1 is the contracted one: the one coordinate of `q`. -/
theorem kDot1_lhs_1 (i : S1000x128.Idx) (q : kDot1.contr.Idx) : (kDot1.lhsIdx i q 1).val = (q ⟨0, by decide⟩).val :=
  kDot1.lhsIdx_val_of_single rfl i q
/-- The right operand's index at `(i, q)` has the contracted coordinate first: its coordinate 0 is the one coordinate of `q`, -/
theorem kDot1_rhs_0 (i : S1000x128.Idx) (q : kDot1.contr.Idx) : (kDot1.rhsIdx i q 0).val = (q ⟨0, by decide⟩).val :=
  kDot1.rhsIdx_val_of_single rfl i q
/-- … and keeps the output's column: its coordinate 1 is `i 1` (axis 1 of the right operand is its one free axis). -/
theorem kDot1_rhs_1 (i : S1000x128.Idx) (q : kDot1.contr.Idx) : (kDot1.rhsIdx i q 1).val = (i 1).val := by
  unfold DotDims.rhsIdx
  rw [dif_neg (show ¬(1 : Fin S256x128.rank) ∈ kDot1.rhsBatch by decide), dif_pos (show (1 : Fin S256x128.rank) ∈ kDot1.rhsNonContracting by decide)]
  rfl

/-- The contraction sum of the 1000 × 256 by 256 × 128 product at entry (r, c) is Σ_{k < 256} x(r, k) · w(k, c): the
    contraction index set has one axis of extent 256, and at its element k the operands are read at (r, k) and (k, c). -/
theorem kDot1_sum (x : S1000x256.Idx → EReal) (w : S256x128.Idx → EReal) (r : Fin 1000) (c : Fin 128) :
    ∑ q : kDot1.contr.Idx, x (kDot1.lhsIdx (ix2 r c) q) * w (kDot1.rhsIdx (ix2 r c) q) = ∑ k : Fin 256, x (ix2 r k) * w (ix2 k c) := by
  rw [← Equiv.sum_comp (contrEquiv1 kDot1 256 rfl rfl).symm]
  refine Finset.sum_congr rfl fun k _ => ?_
  have hk := contrEquiv1_symm_val kDot1 256 rfl rfl k
  have el : kDot1.lhsIdx (ix2 r c) ((contrEquiv1 kDot1 256 rfl rfl).symm k) = ix2 r k := funext fun a => Fin.ext (by
    match a with
    | ⟨0, _⟩ => exact kDot1_lhs_0 _ _
    | ⟨1, _⟩ => exact (kDot1_lhs_1 _ _).trans hk)
  have er : kDot1.rhsIdx (ix2 r c) ((contrEquiv1 kDot1 256 rfl rfl).symm k) = ix2 k c := funext fun a => Fin.ext (by
    match a with
    | ⟨0, _⟩ => exact (kDot1_rhs_0 _ _).trans hk
    | ⟨1, _⟩ => exact kDot1_rhs_1 _ _)
  rw [el, er]

/-! ### The second layer's block product -/

/-- In the 1000 × 128 by 128 × 40 product, the left operand's index at output index `i` and contraction index `q` keeps the
    output's row: its coordinate 0 is `i 0` (axis 0 of the left operand is its one free axis), -/
theorem kDot2_lhs_0 (i : S1000x40.Idx) (q : kDot2.contr.Idx) : (kDot2.lhsIdx i q 0).val = (i 0).val := by
  unfold DotDims.lhsIdx
  rw [dif_neg (show ¬(0 : Fin S1000x128.rank) ∈ kDot2.lhsBatch by decide), dif_pos (show (0 : Fin S1000x128.rank) ∈ kDot2.lhsNonContracting by decide)]
  rfl
/-- … and its coordinate 1 is the contracted one: the one coordinate of `q`. -/
theorem kDot2_lhs_1 (i : S1000x40.Idx) (q : kDot2.contr.Idx) : (kDot2.lhsIdx i q 1).val = (q ⟨0, by decide⟩).val :=
  kDot2.lhsIdx_val_of_single rfl i q
/-- The right operand's index at `(i, q)` has the contracted coordinate first: its coordinate 0 is the one coordinate of `q`, -/
theorem kDot2_rhs_0 (i : S1000x40.Idx) (q : kDot2.contr.Idx) : (kDot2.rhsIdx i q 0).val = (q ⟨0, by decide⟩).val :=
  kDot2.rhsIdx_val_of_single rfl i q
/-- … and keeps the output's column: its coordinate 1 is `i 1` (axis 1 of the right operand is its one free axis). -/
theorem kDot2_rhs_1 (i : S1000x40.Idx) (q : kDot2.contr.Idx) : (kDot2.rhsIdx i q 1).val = (i 1).val := by
  unfold DotDims.rhsIdx
  rw [dif_neg (show ¬(1 : Fin S128x40.rank) ∈ kDot2.rhsBatch by decide), dif_pos (show (1 : Fin S128x40.rank) ∈ kDot2.rhsNonContracting by decide)]
  rfl

/-- The contraction sum of the 1000 × 128 by 128 × 40 product at entry (r, c) is Σ_{k < 128} x(r, k) · w(k, c). -/
theorem kDot2_sum (x : S1000x128.Idx → EReal) (w : S128x40.Idx → EReal) (r : Fin 1000) (c : Fin 40) :
    ∑ q : kDot2.contr.Idx, x (kDot2.lhsIdx (ix2 r c) q) * w (kDot2.rhsIdx (ix2 r c) q) = ∑ k : Fin 128, x (ix2 r k) * w (ix2 k c) := by
  rw [← Equiv.sum_comp (contrEquiv1 kDot2 128 rfl rfl).symm]
  refine Finset.sum_congr rfl fun k _ => ?_
  have hk := contrEquiv1_symm_val kDot2 128 rfl rfl k
  have el : kDot2.lhsIdx (ix2 r c) ((contrEquiv1 kDot2 128 rfl rfl).symm k) = ix2 r k := funext fun a => Fin.ext (by
    match a with
    | ⟨0, _⟩ => exact kDot2_lhs_0 _ _
    | ⟨1, _⟩ => exact (kDot2_lhs_1 _ _).trans hk)
  have er : kDot2.rhsIdx (ix2 r c) ((contrEquiv1 kDot2 128 rfl rfl).symm k) = ix2 k c := funext fun a => Fin.ext (by
    match a with
    | ⟨0, _⟩ => exact (kDot2_rhs_0 _ _).trans hk
    | ⟨1, _⟩ => exact kDot2_rhs_1 _ _)
  rw [el, er]

/-! ### The first layer's whole product -/

/-- In the 50000 × 256 by 256 × 128 product, the left operand's index at output index `i` and contraction index `q` keeps the
    output's row: its coordinate 0 is `i 0` (axis 0 of the left operand is its one free axis), -/
theorem rDot1_lhs_0 (i : S50000x128.Idx) (q : rDot1.contr.Idx) : (rDot1.lhsIdx i q 0).val = (i 0).val := by
  unfold DotDims.lhsIdx
  rw [dif_neg (show ¬(0 : Fin S50000x256.rank) ∈ rDot1.lhsBatch by decide), dif_pos (show (0 : Fin S50000x256.rank) ∈ rDot1.lhsNonContracting by decide)]
  rfl
/-- … and its coordinate 1 is the contracted one: the one coordinate of `q`. -/
theorem rDot1_lhs_1 (i : S50000x128.Idx) (q : rDot1.contr.Idx) : (rDot1.lhsIdx i q 1).val = (q ⟨0, by decide⟩).val :=
  rDot1.lhsIdx_val_of_single rfl i q
/-- The right operand's index at `(i, q)` has the contracted coordinate first: its coordinate 0 is the one coordinate of `q`, -/
theorem rDot1_rhs_0 (i : S50000x128.Idx) (q : rDot1.contr.Idx) : (rDot1.rhsIdx i q 0).val = (q ⟨0, by decide⟩).val :=
  rDot1.rhsIdx_val_of_single rfl i q
/-- … and keeps the output's column: its coordinate 1 is `i 1` (axis 1 of the right operand is its one free axis). -/
theorem rDot1_rhs_1 (i : S50000x128.Idx) (q : rDot1.contr.Idx) : (rDot1.rhsIdx i q 1).val = (i 1).val := by
  unfold DotDims.rhsIdx
  rw [dif_neg (show ¬(1 : Fin S256x128.rank) ∈ rDot1.rhsBatch by decide), dif_pos (show (1 : Fin S256x128.rank) ∈ rDot1.rhsNonContracting by decide)]
  rfl

/-- The contraction sum of the 50000 × 256 by 256 × 128 product at entry (r, c) is Σ_{k < 256} x(r, k) · w(k, c). -/
theorem rDot1_sum (x : S50000x256.Idx → EReal) (w : S256x128.Idx → EReal) (r : Fin 50000) (c : Fin 128) :
    ∑ q : rDot1.contr.Idx, x (rDot1.lhsIdx (ix2 r c) q) * w (rDot1.rhsIdx (ix2 r c) q) = ∑ k : Fin 256, x (ix2 r k) * w (ix2 k c) := by
  rw [← Equiv.sum_comp (contrEquiv1 rDot1 256 rfl rfl).symm]
  refine Finset.sum_congr rfl fun k _ => ?_
  have hk := contrEquiv1_symm_val rDot1 256 rfl rfl k
  have el : rDot1.lhsIdx (ix2 r c) ((contrEquiv1 rDot1 256 rfl rfl).symm k) = ix2 r k := funext fun a => Fin.ext (by
    match a with
    | ⟨0, _⟩ => exact rDot1_lhs_0 _ _
    | ⟨1, _⟩ => exact (rDot1_lhs_1 _ _).trans hk)
  have er : rDot1.rhsIdx (ix2 r c) ((contrEquiv1 rDot1 256 rfl rfl).symm k) = ix2 k c := funext fun a => Fin.ext (by
    match a with
    | ⟨0, _⟩ => exact (rDot1_rhs_0 _ _).trans hk
    | ⟨1, _⟩ => exact rDot1_rhs_1 _ _)
  rw [el, er]

/-! ### The second layer's whole product -/

/-- In the 50000 × 128 by 128 × 40 product, the left operand's index at output index `i` and contraction index `q` keeps the
    output's row: its coordinate 0 is `i 0` (axis 0 of the left operand is its one free axis), -/
theorem rDot2_lhs_0 (i : S50000x40.Idx) (q : rDot2.contr.Idx) : (rDot2.lhsIdx i q 0).val = (i 0).val := by
  unfold DotDims.lhsIdx
  rw [dif_neg (show ¬(0 : Fin S50000x128.rank) ∈ rDot2.lhsBatch by decide), dif_pos (show (0 : Fin S50000x128.rank) ∈ rDot2.lhsNonContracting by decide)]
  rfl
/-- … and its coordinate 1 is the contracted one: the one coordinate of `q`. -/
theorem rDot2_lhs_1 (i : S50000x40.Idx) (q : rDot2.contr.Idx) : (rDot2.lhsIdx i q 1).val = (q ⟨0, by decide⟩).val :=
  rDot2.lhsIdx_val_of_single rfl i q
/-- The right operand's index at `(i, q)` has the contracted coordinate first: its coordinate 0 is the one coordinate of `q`, -/
theorem rDot2_rhs_0 (i : S50000x40.Idx) (q : rDot2.contr.Idx) : (rDot2.rhsIdx i q 0).val = (q ⟨0, by decide⟩).val :=
  rDot2.rhsIdx_val_of_single rfl i q
/-- … and keeps the output's column: its coordinate 1 is `i 1` (axis 1 of the right operand is its one free axis). -/
theorem rDot2_rhs_1 (i : S50000x40.Idx) (q : rDot2.contr.Idx) : (rDot2.rhsIdx i q 1).val = (i 1).val := by
  unfold DotDims.rhsIdx
  rw [dif_neg (show ¬(1 : Fin S128x40.rank) ∈ rDot2.rhsBatch by decide), dif_pos (show (1 : Fin S128x40.rank) ∈ rDot2.rhsNonContracting by decide)]
  rfl

/-- The contraction sum of the 50000 × 128 by 128 × 40 product at entry (r, c) is Σ_{k < 128} x(r, k) · w(k, c). -/
theorem rDot2_sum (x : S50000x128.Idx → EReal) (w : S128x40.Idx → EReal) (r : Fin 50000) (c : Fin 40) :
    ∑ q : rDot2.contr.Idx, x (rDot2.lhsIdx (ix2 r c) q) * w (rDot2.rhsIdx (ix2 r c) q) = ∑ k : Fin 128, x (ix2 r k) * w (ix2 k c) := by
  rw [← Equiv.sum_comp (contrEquiv1 rDot2 128 rfl rfl).symm]
  refine Finset.sum_congr rfl fun k _ => ?_
  have hk := contrEquiv1_symm_val rDot2 128 rfl rfl k
  have el : rDot2.lhsIdx (ix2 r c) ((contrEquiv1 rDot2 128 rfl rfl).symm k) = ix2 r k := funext fun a => Fin.ext (by
    match a with
    | ⟨0, _⟩ => exact rDot2_lhs_0 _ _
    | ⟨1, _⟩ => exact (rDot2_lhs_1 _ _).trans hk)
  have er : rDot2.rhsIdx (ix2 r c) ((contrEquiv1 rDot2 128 rfl rfl).symm k) = ix2 k c := funext fun a => Fin.ext (by
    match a with
    | ⟨0, _⟩ => exact (rDot2_rhs_0 _ _).trans hk
    | ⟨1, _⟩ => exact rDot2_rhs_1 _ _)
  rw [el, er]

/-! ## The two block payloads and the two whole products at an entry -/

/-- The first block payload at entry (r, c) is Σ_{k < 256} x0(r, k) · w(k, c): over the extended reals narrowing an
    operand to a shorter float format changes nothing, and a product accumulated into the zero array is the bare
    contraction sum. -/
theorem k0_pay1_apply (x0 : Vec Ideal S1000x256 .f32) (w : Vec Ideal S256x128 .f32) (r : Fin 1000) (c : Fin 128) :
    k0_pay1 (F := Ideal) x0 w (ix2 r c) = ∑ k : Fin 256, x0 (ix2 r k) * w (ix2 k c) :=
  (Ideal.matmul_constant_zero_apply kDot1 none (truncf .bf16 x0 Facts₀.bitsLt_bf16_f32) (truncf .bf16 w Facts₀.bitsLt_bf16_f32) (ix2 r c)).trans
    (kDot1_sum _ _ r c)

/-- The second block payload at entry (r, c) is Σ_{k < 128} x0(r, k) · w(k, c): as for the first, and the reshape of the
    left operand to its own shape in front of the narrowing is the identity. -/
theorem k2_pay1_apply (x0 : Vec Ideal S1000x128 .f32) (w : Vec Ideal S128x40 .f32) (r : Fin 1000) (c : Fin 40) :
    k2_pay1 (F := Ideal) x0 w (ix2 r c) = ∑ k : Fin 128, x0 (ix2 r k) * w (ix2 k c) := by
  refine ((Ideal.matmul_constant_zero_apply kDot2 none
    (truncf .bf16 (shapeCast S1000x128 x0 Facts₀.shapeCasts_S1000x128_S1000x128) Facts₀.bitsLt_bf16_f32)
    (truncf .bf16 w Facts₀.bitsLt_bf16_f32) (ix2 r c)).trans (kDot2_sum _ _ r c)).trans (Finset.sum_congr rfl fun k _ => ?_)
  exact congrArg (fun z => z * w (ix2 k c)) (congrFun (shapeCast_self x0 Facts₀.shapeCasts_S1000x128_S1000x128) (ix2 r k))

/-- The first layer's whole product `a · w` at entry (i, c) is Σ_{k < 256} a(i, k) · w(k, c). -/
theorem dense1_apply (a : Fl Ideal S50000x256) (w : Fl Ideal S256x128) (i : Fin 50000) (c : Fin 128) :
    Cert.Stages.dense1 a w (ix2 i c) = ∑ k : Fin 256, a (ix2 i k) * w (ix2 k c) :=
  (Ideal.dotGeneral_apply (φ₁ := .f32) (φ₂ := .f32) rDot1 none .single a w (ix2 i c)).trans (rDot1_sum a w i c)

/-- The second layer's whole product `a · w` at entry (i, c) is Σ_{k < 128} a(i, k) · w(k, c). -/
theorem dense2_apply (a : Fl Ideal S50000x128) (w : Fl Ideal S128x40) (i : Fin 50000) (c : Fin 40) :
    Cert.Stages.dense2 a w (ix2 i c) = ∑ k : Fin 128, a (ix2 i k) * w (ix2 k c) :=
  (Ideal.dotGeneral_apply (φ₁ := .f32) (φ₂ := .f32) rDot2 none .single a w (ix2 i c)).trans (rDot2_sum a w i c)

/-! ## The blocks -/

/-- Block t of the first product. If the 1000 × 256 block `x0` holds rows t·1000 … t·1000 + 999 of `a`, then entry (r, c)
    of the block payload is entry (t·1000 + r, c) of the whole product `a · w`: both are Σ_{k < 256} of the row's k-th
    entry times w(k, c), and the rows agree entry by entry. -/
theorem dense1_block (a : Fl Ideal S50000x256) (w : Fl Ideal S256x128) (x0 : Vec Ideal S1000x256 .f32)
    (t : Nat) (ht : t < 50)
    (hx : ∀ (r : Fin 1000) (k : Fin 256), x0 (ix2 r k) = a (ix2 (⟨t * 1000 + r.val, by have := r.isLt; omega⟩ : Fin 50000) k))
    (r : Fin 1000) (c : Fin 128) :
    k0_pay1 (F := Ideal) x0 w (ix2 r c) = Cert.Stages.dense1 a w (ix2 (⟨t * 1000 + r.val, by have := r.isLt; omega⟩ : Fin 50000) c) :=
  (k0_pay1_apply x0 w r c).trans
    ((Finset.sum_congr rfl fun k _ => congrArg (fun z => z * w (ix2 k c)) (hx r k)).trans (dense1_apply a w _ c).symm)

/-- Block t of the second product: the same with rows of 128 against the 128 × 40 weights. -/
theorem dense2_block (a : Fl Ideal S50000x128) (w : Fl Ideal S128x40) (x0 : Vec Ideal S1000x128 .f32)
    (t : Nat) (ht : t < 50)
    (hx : ∀ (r : Fin 1000) (k : Fin 128), x0 (ix2 r k) = a (ix2 (⟨t * 1000 + r.val, by have := r.isLt; omega⟩ : Fin 50000) k))
    (r : Fin 1000) (c : Fin 40) :
    k2_pay1 (F := Ideal) x0 w (ix2 r c) = Cert.Stages.dense2 a w (ix2 (⟨t * 1000 + r.val, by have := r.isLt; omega⟩ : Fin 50000) c) :=
  (k2_pay1_apply x0 w r c).trans
    ((Finset.sum_congr rfl fun k _ => congrArg (fun z => z * w (ix2 k c)) (hx r k)).trans (dense2_apply a w _ c).symm)

end Cert.KernelIdeal.DenseBlocks

end
-- ==== Proof.Region0.lean ====
/-
  The first dense product's region: its output array is `x · W1`.

  The region runs its body once per block of 1000 rows: at point `t` the left window holds rows t·1000 … t·1000 + 999 of
  its array, the right window holds its whole array (its block index never moves), and the body's result is written back
  as rows t·1000 … t·1000 + 999 of the output array. The 50 blocks tile the 50000 rows, so the output array ends as the
  one whole-array function whose every block is what the body computes from the corresponding block: `x · W1` of the node features and the first weights.
-/
import proofs.«110425_j50302656971586_1_alg».proof.Proof.Gen.KernelIdeal.Frame
import proofs.«110425_j50302656971586_1_alg».proof.Proof.DenseBlocks
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has fifty points. -/
theorem point_lt (t : Fin cfg0.N) : t.val < 50 := lt_of_lt_of_eq t.isLt (N_0 : cfg0.N = 50)

/-- The printed index maps over the grid: the left and the output window sit at block (t, 0), the right window at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The right window's block is its whole array at every point. -/
theorem right_block (c : Dev nD) (t : Fin cfg0.N) : iblk0 V c 1 t = V c main_arg1 := by
  obtain ⟨-, -, e2, e3, -, -⟩ := index_facts t
  funext y
  show V c main_arg1 (((cfg0.win 1).blk t).view.emb y) = V c main_arg1 y
  refine congrArg (V c main_arg1) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- Row `r` of the left window's block at point `t` is row t·1000 + r of its array. -/
theorem left_block (c : Dev nD) (t : Fin cfg0.N) (r : Fin 1000) (k : Fin 256) :
    iblk0 V c 0 t (ix2 r k) = V c main_arg0 (ix2 (⟨t.val * 1000 + r.val, by have := r.isLt; have := point_lt t; omega⟩ : Fin 50000) k) := by
  obtain ⟨e0, e1, -, -, -, -⟩ := index_facts t
  show V c main_arg0 (((cfg0.win 0).blk t).view.emb (ix2 r k)) = _
  refine congrArg (V c main_arg0) (funext fun a => Fin.ext ?_)
  match a with
  | ⟨0, _⟩ => show win0_0.index t (0 : Fin 2) * 1000 + 1 * r.val = t.val * 1000 + r.val; omega
  | ⟨1, _⟩ => show win0_0.index t (1 : Fin 2) * 256 + 1 * k.val = k.val; omega

/-- Entry (r, q) of the output window's block at point `t` sits at (t·1000 + r, q) of the output array. -/
theorem out_emb (t : Fin cfg0.N) (j : S1000x128.Idx) :
    ((cfg0.win 2).blk t).view.emb j = ix2 (⟨t.val * 1000 + (j 0).val, by have h0 : (j 0).val < 1000 := (j 0).isLt; have := point_lt t; omega⟩ : Fin 50000) (j 1) := by
  obtain ⟨-, -, -, -, e4, e5⟩ := index_facts t
  funext a; apply Fin.ext
  match a with
  | ⟨0, _⟩ => show win0_2.index t (0 : Fin 2) * 1000 + 1 * (j 0).val = t.val * 1000 + (j 0).val; omega
  | ⟨1, _⟩ => show win0_2.index t (1 : Fin 2) * 128 + 1 * (j 1).val = (j 1).val; omega

/-- What point `t` writes back is block `t` of the whole-array function of the arrays the region finds. -/
theorem flushed_eq (c : Dev nD) (t : Fin cfg0.N) :
    (dat0 V c).flushed 2 t = ((cfg0.win 2).blk t).view.read (Elt Ideal) (Cert.Stages.dense1 (V c main_arg0) (V c main_arg1)) := by
  show (cfg0.win 2).cut (grid0.coords t) ((dat0 V c).after 2 t) = _
  rw [after0_2]
  unfold out0_2
  rw [View.canon_unit_zero origin]
  simp only [View.ld_unit_zero (S := S1000x256) origin, View.ld_unit_zero (S := S256x128) origin]
  rw [right_block V c t]
  funext j
  show k0_pay1 (F := Ideal) (iblk0 V c 0 t) (V c main_arg1) j = Cert.Stages.dense1 (V c main_arg0) (V c main_arg1) (((cfg0.win 2).blk t).view.emb j)
  rw [out_emb t j]
  have hj : j = ix2 (j 0) (j 1) := eq_ix2 j
  rw [hj]
  exact DenseBlocks.dense1_block (V c main_arg0) (V c main_arg1) (iblk0 V c 0 t) t.val (point_lt t) (left_block V c t) (j 0) (j 1)

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- Every index of the output array is in the block of the point its row falls in. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  have htv : t.val = (i 0).val / 1000 := rfl
  obtain ⟨-, -, -, -, e4, e5⟩ := index_facts t
  refine ⟨t, flush0_2 t, ?_⟩
  rw [mem_block]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- THE REGION'S OUTPUT ARRAY after its fifty points: `x · W1` of the node features and the first weights. -/
theorem array_eq (c : Dev nD) : (dat0 V c).arrAt 2 cfg0.N = Cert.Stages.dense1 (V c main_arg0) (V c main_arg1) :=
  (dat0 V c).arrAt_eq_of_cover 2 _ (fun t _ => flushed_eq V c t) covered

end Cert.KernelIdeal.Region0

end
-- ==== Proof.RowBlocks.lean ====
/-
  The two row-wise stages, block by block.

  `max (a + b) 0` is entry by entry, and the log-softmax of a row depends on that row only (its maximum, the sum of
  its exponentials); the bias is one row laid under every row. So a block of 1000 rows of the result is the same
  function of the same 1000 rows of `a`. The reference takes the row maximum as `max (−∞) (fold max from −∞)`, which on
  the extended reals is the fold itself.
-/
import proofs.«110425_j50302656971586_1_alg».proof.Proof.Gen.KernelIdeal.Skeleton
import proofs.«110425_j50302656971586_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowBlocks

open Cert.KernelIdeal Cert.KernelIdeal.Gen Idealize.ShloMosaic Idealize.ShloMosaic.TcCoe Idealize.ShloMosaic.ValueIdx
open Cert.Stages (Fl)

/-! ## Layout operations of the two programs, read at coordinates -/

section Layout
variable {α : Type}

/-- A one-row array [1, n] laid under every row of an [m, n] array (a broadcast along both axes) reads, at (p, c), the
row's entry at c. -/
theorem bcastRow_apply {m n : ℕ} (v : (⟨2, ![1, n]⟩ : Shape).Idx → α)
    (h : (⟨2, ![1, n]⟩ : Shape).BroadcastsInDim ⟨2, ![m, n]⟩ ![0, 1]) (p : Fin m) (c : Fin n) :
    broadcastInDim ⟨2, ![m, n]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if n = 1 then 0 else c.val
    split
    · have := c.isLt; omega
    · rfl

/-- A scalar spread over any shape reads the scalar everywhere. -/
theorem bcastScalar_apply {T : Shape} (h : (⟨0, ![]⟩ : Shape).BroadcastsInDim T ![])
    (x : (⟨0, ![]⟩ : Shape).Idx → α) (j : T.Idx) : broadcastInDim T ![] h x j = x ix0 :=
  broadcastInDim_apply _ h x j ix0 fun ax => ax.elim0

/-- A vector [m] stood up as a column [m, 1] (a broadcast along axis 0) reads, at (p, u), the vector at p. -/
theorem bcastCol_apply {m : ℕ} (v : (⟨1, ![m]⟩ : Shape).Idx → α)
    (h : (⟨1, ![m]⟩ : Shape).BroadcastsInDim ⟨2, ![m, 1]⟩ ![0]) (p : Fin m) (u : Fin 1) :
    broadcastInDim ⟨2, ![m, 1]⟩ ![0] h v (ix2 p u) = v (ix1 p) := by
  refine broadcastInDim_apply _ h v (ix2 p u) (ix1 p) fun ax => ?_
  match ax with
  | ⟨0, _⟩ =>
    show p.val = if m = 1 then 0 else p.val
    split
    · have := p.isLt; omega
    · rfl

/-- A column [m, 1] spread along the rows of an [m, n] array (a broadcast along both axes) reads, at (p, c), the column
at p. -/
theorem bcastAlong_apply {m n : ℕ} (v : (⟨2, ![m, 1]⟩ : Shape).Idx → α)
    (h : (⟨2, ![m, 1]⟩ : Shape).BroadcastsInDim ⟨2, ![m, n]⟩ ![0, 1]) (p : Fin m) (c : Fin n) :
    broadcastInDim ⟨2, ![m, n]⟩ ![0, 1] h v (ix2 p c) = v (ix2 p (0 : Fin 1)) := by
  refine broadcastInDim_apply _ h v (ix2 p c) (ix2 p (0 : Fin 1)) fun ax => ?_
  match ax with
  | ⟨0, _⟩ =>
    show p.val = if m = 1 then 0 else p.val
    split
    · have := p.isLt; omega
    · rfl
  | ⟨1, _⟩ => rfl

/-- A vector [m] cast to a column [m, 1] reads, at (p, u), the vector at p. -/
theorem castCol_apply {m : ℕ} (v : (⟨1, ![m]⟩ : Shape).Idx → α) (h : (⟨1, ![m]⟩ : Shape).ShapeCasts ⟨2, ![m, 1]⟩)
    (p : Fin m) (u : Fin 1) : shapeCast ⟨2, ![m, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [m, 1] spread along the rows of an [m, n] array by the vector unit's broadcast reads, at (p, c), the column
at p. -/
theorem spreadAlong_apply {m n : ℕ} (v : (⟨2, ![m, 1]⟩ : Shape).Idx → α) (h : (⟨2, ![m, 1]⟩ : Shape).Broadcasts ⟨2, ![m, n]⟩)
    (p : Fin m) (c : Fin n) : broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

end Layout

/-- Bias and ReLU, block t: the kernel's body on rows t·1000 … t·1000 + 999 of a, at (r, c), is the reference's
max (a + b) 0 at (t·1000 + r, c): entry by entry, max (x(r, c) + b(0, c)) 0. -/
theorem biasRelu_block (a : Fl Ideal S50000x128) (b : Fl Ideal S1x128) (x0 : Vec Ideal S1000x128 .f32)
    (t : Nat) (ht : t < 50)
    (hx : ∀ (r : Fin 1000) (k : Fin 128), x0 (ix2 r k) = a (ix2 (⟨t * 1000 + r.val, by have := r.isLt; omega⟩ : Fin 50000) k))
    (r : Fin 1000) (c : Fin 128) :
    k1_pay1 (F := Ideal) x0 b (ix2 r c) = Cert.Stages.biasRelu a b (ix2 (⟨t * 1000 + r.val, by have := r.isLt; omega⟩ : Fin 50000) c) := by
  unfold k1_pay1 Cert.Stages.biasRelu
  rw [shapeCast_self, shapeCast_self]
  show max (x0 (ix2 r c) + broadcastTo S1000x128 b broadcasts_S1x128_S1000x128 (ix2 r c)) (Ideal.ofBits .f32 0x00000000#32)
    = max (a (ix2 _ c) + broadcastInDim Cert.ReferenceIdeal.S50000x128 ![0, 1] Cert.ReferenceIdeal.Gen.bcast_S1x128_S50000x128_0_1 b (ix2 _ c))
        (broadcastInDim Cert.ReferenceIdeal.S50000x128 ![] Cert.ReferenceIdeal.Gen.bcast_S_S50000x128
          (constant (F := Ideal) Cert.ReferenceIdeal.S_ .f32 0x00000000#32) (ix2 _ c))
  rw [broadcastTo_1b_ab_apply, hx, bcastRow_apply, bcastScalar_apply]
  rfl

/-! ## The log-softmax of one row -/

/-- The maximum of a row's entries, folded from −∞. -/
def rowMax {n : ℕ} (f : Fin n → EReal) : EReal := (Finset.univ : Finset (Fin n)).fold max ⊥ f

/-- The log-softmax of a row at column c: with z = f − max f, the value z c − log Σ exp z. -/
def rowLogSoftmax {n : ℕ} (f : Fin n → EReal) (c : Fin n) : EReal :=
  (f c - rowMax f) - Ideal.log (∑ k : Fin n, Ideal.exp (f k - rowMax f))

/-- The f32 word 0xFF800000 is −∞. -/
theorem ofBits_negInf_f32 : Ideal.ofBits .f32 0xFF800000#32 = ⊥ := by simp [Ideal.ofBits, Ideal.ieee]

/-! ## Reductions along the columns of an [m, n] array, read at a row -/

/-- Over row r of the result of a reduction of an [m, n] array along axis 1, the source index with column k put back is
(r, k). -/
theorem lift_row {m n : ℕ} (h : (⟨2, ![m, n]⟩ : Shape).Reduces [1] ⟨1, ![m]⟩) (r : Fin m) (k : Fin n) :
    h.lift (ix1 r) k = ix2 r k := by
  funext ax
  match ax with
  | ⟨0, _⟩ => exact Fin.ext rfl
  | ⟨1, _⟩ => exact Fin.ext rfl

/-- The vector unit's maximum along the columns, from −∞: at row r, the maximum of that row. -/
theorem kernelRowMax_apply {m n : ℕ} (Y : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (r : Fin m) :
    multiReduction .maximumf [1] ⟨1, ![m]⟩ Y 0xFF800000#32 h hφ hacc (ix1 r) = rowMax fun k => Y (ix2 r k) := by
  rw [Ideal.multiReduction_maximumf_single]
  show (Finset.univ : Finset (Fin n)).fold max (Ideal.ofBits .f32 0xFF800000#32) (fun k => Y (h.lift (ix1 r) k)) = _
  rw [ofBits_negInf_f32]
  unfold rowMax
  exact congrArg (fun f : Fin n → EReal => (Finset.univ : Finset (Fin n)).fold max ⊥ f) (funext fun k => congrArg Y (lift_row h r k))

/-- The vector unit's sum along the columns, from the zero word: at row r, the sum of that row. -/
theorem kernelRowSum_apply {m n : ℕ} (E : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction .add [1] ⟨1, ![m]⟩ E 0x00000000#32 h hφ hacc (ix1 r) = ∑ k : Fin n, E (ix2 r k) := by
  rw [Ideal.multiReduction_add_single]
  exact Finset.sum_congr rfl fun k _ => congrArg E (lift_row h r k)

/-- The host's maximum along the columns, from an initial value that is −∞: at row r, the maximum of that row. -/
theorem hostRowMax_apply {m n : ℕ} {u : Shape} (Y : (⟨2, ![m, n]⟩ : Shape).Idx → EReal) (init : u.Idx → EReal)
    (h' : (⟨2, ![m, n]⟩ : Shape).ReducesTo [1] ⟨1, ![m]⟩) (h : (⟨2, ![m, n]⟩ : Shape).Reduces [1] ⟨1, ![m]⟩)
    (hu : 0 < u.numel) (hinit : init (Shape.Idx.first hu) = ⊥) (r : Fin m) :
    Host.reduce (FloatOps.maximumf (F := Ideal) (φ := .f32)) Y init h' hu (ix1 r) = rowMax fun k => Y (ix2 r k) := by
  rw [Host.reduce_eq_fold_single (FloatOps.maximumf (F := Ideal) (φ := .f32)) Y init h' h hu (ix1 r), hinit]
  show (Finset.univ : Finset (Fin n)).fold max ⊥ (fun k => Y (h.lift (ix1 r) k)) = _
  unfold rowMax
  exact congrArg (fun f : Fin n → EReal => (Finset.univ : Finset (Fin n)).fold max ⊥ f)
    (funext fun k => congrArg Y (lift_row h r k))

/-- The host's sum along the columns, from an initial value that is zero: at row r, the sum of that row. -/
theorem hostRowSum_apply {m n : ℕ} {u : Shape} (E : FVec Ideal ⟨2, ![m, n]⟩ .f32) (init : u.Idx → Ideal .f32)
    (h' : (⟨2, ![m, n]⟩ : Shape).ReducesTo [1] ⟨1, ![m]⟩) (h : (⟨2, ![m, n]⟩ : Shape).Reduces [1] ⟨1, ![m]⟩)
    (hu : 0 < u.numel) (hinit : init (Shape.Idx.first hu) = 0) (r : Fin m) :
    Host.reduceAdd E init h' hu (ix1 r) = ∑ k : Fin n, E (ix2 r k) := by
  show Ideal.hostReduceAdd h' E (init (Shape.Idx.first hu)) (ix1 r) = _
  rw [Ideal.hostReduceAdd_single h' h, hinit, zero_add]
  exact Finset.sum_congr rfl fun k _ => congrArg E (lift_row h r k)

/-! ## The logarithm at an index: one function on the extended reals in both programs -/

section Log
variable {s : Shape}

/-- The vector unit's logarithm at an index is the extended reals' logarithm of the entry. -/
theorem log_apply (x : FVec Ideal s .f32) (i : s.Idx) : log x i = Ideal.log (x i) := rfl
/-- The host's logarithm at an index is the same function of the entry. -/
theorem hostLog_apply (x : FVec Ideal s .f32) (i : s.Idx) : Host.log x i = Ideal.log (x i) := rfl

end Log

/-! ## The kernel's block -/

/-- Each row less its maximum, as the kernel takes it: at (r, k), the entry less the maximum of row r. -/
theorem kernelCentered_apply (Y : FVec Ideal S1000x40 .f32) (hφ : FKind.Formats .f32)
    (hacc : (0xFF800000#32 : BitVec 32) = FKind.maximumf.neutral .f32 hφ) (r : Fin 1000) (k : Fin 40) :
    subf Y (broadcastTo S1000x40 (shapeCast S1000x1 (multiReduction .maximumf [1] S1000 Y 0xFF800000#32
        reduces_S1000x40_S1000 hφ hacc) shapeCasts_S1000_S1000x1) broadcasts_S1000x1_S1000x40) (ix2 r k)
      = Y (ix2 r k) - rowMax fun k' => Y (ix2 r k') := by
  rw [subf_apply, spreadAlong_apply, castCol_apply, kernelRowMax_apply]

/-- The logarithm of each row's sum of exponentials, spread back along the row, as the kernel takes it. -/
theorem kernelLogSum_apply (Z : FVec Ideal S1000x40 .f32) (hφ : FKind.Formats .f32)
    (hacc : (0x00000000#32 : BitVec 32) = FKind.add.neutral .f32 hφ) (r : Fin 1000) (c : Fin 40) :
    broadcastTo S1000x40 (log (shapeCast S1000x1 (multiReduction .add [1] S1000 (exp Z) 0x00000000#32
        reduces_S1000x40_S1000 hφ hacc) shapeCasts_S1000_S1000x1)) broadcasts_S1000x1_S1000x40 (ix2 r c)
      = Ideal.log (∑ k : Fin 40, Ideal.exp (Z (ix2 r k))) := by
  rw [spreadAlong_apply, log_apply, castCol_apply, kernelRowSum_apply]
  rfl

/-- The kernel's steps after the bias, on any [1000, 40] array: at (r, c), the log-softmax of row r. -/
theorem kernelTail_apply (Y : FVec Ideal S1000x40 .f32) (hφ : FKind.Formats .f32)
    (hmax : (0xFF800000#32 : BitVec 32) = FKind.maximumf.neutral .f32 hφ)
    (hadd : (0x00000000#32 : BitVec 32) = FKind.add.neutral .f32 hφ) (r : Fin 1000) (c : Fin 40) :
    subf
      (subf Y (broadcastTo S1000x40 (shapeCast S1000x1 (multiReduction .maximumf [1] S1000 Y 0xFF800000#32
        reduces_S1000x40_S1000 hφ hmax) shapeCasts_S1000_S1000x1) broadcasts_S1000x1_S1000x40))
      (broadcastTo S1000x40 (log (shapeCast S1000x1 (multiReduction .add [1] S1000
        (exp (subf Y (broadcastTo S1000x40 (shapeCast S1000x1 (multiReduction .maximumf [1] S1000 Y 0xFF800000#32
          reduces_S1000x40_S1000 hφ hmax) shapeCasts_S1000_S1000x1) broadcasts_S1000x1_S1000x40)))
        0x00000000#32 reduces_S1000x40_S1000 hφ hadd) shapeCasts_S1000_S1000x1)) broadcasts_S1000x1_S1000x40)
      (ix2 r c)
      = rowLogSoftmax (fun k => Y (ix2 r k)) c := by
  rw [subf_apply, kernelLogSum_apply, kernelCentered_apply]
  exact congrArg (fun s : EReal => (Y (ix2 r c) - rowMax fun k' => Y (ix2 r k')) - Ideal.log s)
    (Finset.sum_congr rfl fun k _ => congrArg Ideal.exp (kernelCentered_apply Y hφ hmax r k))

/-- The kernel's body at (r, c): the log-softmax of row r of the block with the bias row added. -/
theorem k3_pay1_apply (x0 : Vec Ideal S1000x40 .f32) (b : Vec Ideal S1x40 .f32) (r : Fin 1000) (c : Fin 40) :
    k3_pay1 (F := Ideal) x0 b (ix2 r c) = rowLogSoftmax (fun k => x0 (ix2 r k) + b (ix2 (0 : Fin 1) k)) c := by
  have hy : ∀ k : Fin 40, (addf (shapeCast S1000x40 (x0 : FVec Ideal S1000x40 .f32) shapeCasts_S1000x40_S1000x40)
        (broadcastTo S1000x40 (shapeCast S1x40 (b : FVec Ideal S1x40 .f32) shapeCasts_S1x40_S1x40)
          broadcasts_S1x40_S1000x40) : FVec Ideal S1000x40 .f32) (ix2 r k)
      = x0 (ix2 r k) + b (ix2 (0 : Fin 1) k) := fun k => by
    rw [shapeCast_self, shapeCast_self, addf_apply, broadcastTo_1b_ab_apply]
  unfold k3_pay1
  exact (kernelTail_apply _ _ _ _ r c).trans (congrArg (fun f => rowLogSoftmax f c) (funext hy))

/-! ## The reference's rows -/

/-- Each row less its maximum, as the reference takes it: the maximum is the larger of −∞ and the host's maximum along the
columns from −∞, that is, the row's maximum. -/
theorem hostCentered_apply (y : Fl Ideal Cert.ReferenceIdeal.S50000x40) (R : Fin 50000) (k : Fin 40) :
    (subf (y : FVec Ideal Cert.ReferenceIdeal.S50000x40 .f32)
      (broadcastInDim Cert.ReferenceIdeal.S50000x40 ![0, 1] Cert.ReferenceIdeal.Gen.bcast_S50000x1_S50000x40_0_1
        (broadcastInDim Cert.ReferenceIdeal.S50000x1 ![0] Cert.ReferenceIdeal.Gen.bcast_S50000_S50000x1_0
          (maximumf
            (broadcastInDim Cert.ReferenceIdeal.S50000 ![] Cert.ReferenceIdeal.Gen.bcast_S_S50000
              (constant (F := Ideal) Cert.ReferenceIdeal.S_ .f32 0xFF800000#32))
            (Host.reduce FloatOps.maximumf y (constant (F := Ideal) Cert.ReferenceIdeal.S_ .f32 0xFF800000#32)
              Cert.ReferenceIdeal.Gen.reducesTo_S50000x40_S50000_d1 Cert.ReferenceIdeal.Gen.h_S_)))) :
        FVec Ideal Cert.ReferenceIdeal.S50000x40 .f32) (ix2 R k)
      = y (ix2 R k) - rowMax fun k' => y (ix2 R k') := by
  rw [subf_apply, bcastAlong_apply, bcastCol_apply, maximumf_apply, bcastScalar_apply,
    hostRowMax_apply y _ _ (by decide) _ ofBits_negInf_f32]
  show _ - max (Ideal.ofBits .f32 0xFF800000#32) _ = _
  rw [ofBits_negInf_f32, max_eq_right bot_le]

/-- The logarithm of each row's sum of exponentials, spread back along the row, as the reference takes it. -/
theorem hostLogSum_apply (z : FVec Ideal Cert.ReferenceIdeal.S50000x40 .f32) (R : Fin 50000) (c : Fin 40) :
    broadcastInDim Cert.ReferenceIdeal.S50000x40 ![0, 1] Cert.ReferenceIdeal.Gen.bcast_S50000x1_S50000x40_0_1
      (Host.log (broadcastInDim Cert.ReferenceIdeal.S50000x1 ![0] Cert.ReferenceIdeal.Gen.bcast_S50000_S50000x1_0
        (Host.reduceAdd (Host.exp z) (constant (F := Ideal) Cert.ReferenceIdeal.S_ .f32 0x00000000#32)
          Cert.ReferenceIdeal.Gen.reducesTo_S50000x40_S50000_d1 Cert.ReferenceIdeal.Gen.h_S_) :
        FVec Ideal Cert.ReferenceIdeal.S50000x1 .f32)) (ix2 R c)
      = Ideal.log (∑ k : Fin 40, Ideal.exp (z (ix2 R k))) := by
  rw [bcastAlong_apply, hostLog_apply, bcastCol_apply, hostRowSum_apply _ _ _ (by decide) _ Ideal.ofBits_zero_f32]
  rfl

/-- The reference's log-softmax of the rows at (R, c): the log-softmax of row R. -/
theorem logSoftmaxRows_apply (y : Fl Ideal Cert.ReferenceIdeal.S50000x40) (R : Fin 50000) (c : Fin 40) :
    Cert.Stages.logSoftmaxRows y (ix2 R c) = rowLogSoftmax (fun k => y (ix2 R k)) c := by
  unfold Cert.Stages.logSoftmaxRows
  rw [subf_apply, hostLogSum_apply, hostCentered_apply]
  exact congrArg (fun s : EReal => (y (ix2 R c) - rowMax fun k' => y (ix2 R k')) - Ideal.log s)
    (Finset.sum_congr rfl fun k _ => congrArg Ideal.exp (hostCentered_apply y R k))

/-- The reference's stage at (R, c): the log-softmax of row R of the array with the bias row added. -/
theorem biasLogSoftmax_apply (a : Fl Ideal Cert.ReferenceIdeal.S50000x40) (b : Fl Ideal Cert.ReferenceIdeal.S1x40)
    (R : Fin 50000) (c : Fin 40) :
    Cert.Stages.biasLogSoftmax a b (ix2 R c) = rowLogSoftmax (fun k => a (ix2 R k) + b (ix2 (0 : Fin 1) k)) c := by
  unfold Cert.Stages.biasLogSoftmax
  rw [logSoftmaxRows_apply]
  exact congrArg (fun f => rowLogSoftmax f c) (funext fun k => by rw [addf_apply, bcastRow_apply])

/-- Bias and log-softmax, block t: the kernel's body on rows t·1000 … t·1000 + 999 of a, at (r, c), is the reference's
log-softmax of a + b at (t·1000 + r, c): both are the log-softmax of the one row a(t·1000 + r, ·) + b(0, ·). -/
theorem biasLogSoftmax_block (a : Fl Ideal S50000x40) (b : Fl Ideal S1x40) (x0 : Vec Ideal S1000x40 .f32)
    (t : Nat) (ht : t < 50)
    (hx : ∀ (r : Fin 1000) (k : Fin 40), x0 (ix2 r k) = a (ix2 (⟨t * 1000 + r.val, by have := r.isLt; omega⟩ : Fin 50000) k))
    (r : Fin 1000) (c : Fin 40) :
    k3_pay1 (F := Ideal) x0 b (ix2 r c) = Cert.Stages.biasLogSoftmax a b (ix2 (⟨t * 1000 + r.val, by have := r.isLt; omega⟩ : Fin 50000) c) := by
  rw [k3_pay1_apply, biasLogSoftmax_apply]
  exact congrArg (fun f => rowLogSoftmax f c) (funext fun k => by rw [hx])

end Cert.KernelIdeal.RowBlocks

end
-- ==== Proof.Region1.lean ====
/-
  The bias-and-ReLU region: its output array is `max (A + b1) 0`.

  The region runs its body once per block of 1000 rows: at point `t` the left window holds rows t·1000 … t·1000 + 999 of
  its array, the right window holds its whole array (its block index never moves), and the body's result is written back
  as rows t·1000 … t·1000 + 999 of the output array. The 50 blocks tile the 50000 rows, so the output array ends as the
  one whole-array function whose every block is what the body computes from the corresponding block: `max (A + b1) 0`, entry by entry, of the first edge sum and the bias row.
-/
import proofs.«110425_j50302656971586_1_alg».proof.Proof.Gen.KernelIdeal.Frame
import proofs.«110425_j50302656971586_1_alg».proof.Proof.RowBlocks
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has fifty points. -/
theorem point_lt (t : Fin cfg1.N) : t.val < 50 := lt_of_lt_of_eq t.isLt (N_1 : cfg1.N = 50)

/-- The printed index maps over the grid: the left and the output window sit at block (t, 0), the right window at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The right window's block is its whole array at every point. -/
theorem right_block (c : Dev nD) (t : Fin cfg1.N) : iblk1 V c 1 t = V c main_v14 := by
  obtain ⟨-, -, e2, e3, -, -⟩ := index_facts t
  funext y
  show V c main_v14 (((cfg1.win 1).blk t).view.emb y) = V c main_v14 y
  refine congrArg (V c main_v14) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Row `r` of the left window's block at point `t` is row t·1000 + r of its array. -/
theorem left_block (c : Dev nD) (t : Fin cfg1.N) (r : Fin 1000) (k : Fin 128) :
    iblk1 V c 0 t (ix2 r k) = V c main_v13 (ix2 (⟨t.val * 1000 + r.val, by have := r.isLt; have := point_lt t; omega⟩ : Fin 50000) k) := by
  obtain ⟨e0, e1, -, -, -, -⟩ := index_facts t
  show V c main_v13 (((cfg1.win 0).blk t).view.emb (ix2 r k)) = _
  refine congrArg (V c main_v13) (funext fun a => Fin.ext ?_)
  match a with
  | ⟨0, _⟩ => show win1_0.index t (0 : Fin 2) * 1000 + 1 * r.val = t.val * 1000 + r.val; omega
  | ⟨1, _⟩ => show win1_0.index t (1 : Fin 2) * 128 + 1 * k.val = k.val; omega

/-- Entry (r, q) of the output window's block at point `t` sits at (t·1000 + r, q) of the output array. -/
theorem out_emb (t : Fin cfg1.N) (j : S1000x128.Idx) :
    ((cfg1.win 2).blk t).view.emb j = ix2 (⟨t.val * 1000 + (j 0).val, by have h0 : (j 0).val < 1000 := (j 0).isLt; have := point_lt t; omega⟩ : Fin 50000) (j 1) := by
  obtain ⟨-, -, -, -, e4, e5⟩ := index_facts t
  funext a; apply Fin.ext
  match a with
  | ⟨0, _⟩ => show win1_2.index t (0 : Fin 2) * 1000 + 1 * (j 0).val = t.val * 1000 + (j 0).val; omega
  | ⟨1, _⟩ => show win1_2.index t (1 : Fin 2) * 128 + 1 * (j 1).val = (j 1).val; omega

/-- What point `t` writes back is block `t` of the whole-array function of the arrays the region finds. -/
theorem flushed_eq (c : Dev nD) (t : Fin cfg1.N) :
    (dat1 V c).flushed 2 t = ((cfg1.win 2).blk t).view.read (Elt Ideal) (Cert.Stages.biasRelu (V c main_v13) (V c main_v14)) := by
  show (cfg1.win 2).cut (grid1.coords t) ((dat1 V c).after 2 t) = _
  rw [after1_2]
  unfold out1_2
  rw [View.canon_unit_zero origin]
  simp only [View.ld_unit_zero (S := S1000x128) origin, View.ld_unit_zero (S := S1x128) origin]
  rw [right_block V c t]
  funext j
  show k1_pay1 (F := Ideal) (iblk1 V c 0 t) (V c main_v14) j = Cert.Stages.biasRelu (V c main_v13) (V c main_v14) (((cfg1.win 2).blk t).view.emb j)
  rw [out_emb t j]
  have hj : j = ix2 (j 0) (j 1) := eq_ix2 j
  rw [hj]
  exact RowBlocks.biasRelu_block (V c main_v13) (V c main_v14) (iblk1 V c 0 t) t.val (point_lt t) (left_block V c t) (j 0) (j 1)

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v15).slice (win1_2.rect t)).set ↔ _
  rw [View.set_slice_whole, Rect.mem_set_unit]
  exact Iff.rfl

/-- Every index of the output array is in the block of the point its row falls in. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 50 := N_1
  let t : Fin cfg1.N := ⟨(i 0).val / 1000, by rw [hN]; omega⟩
  have htv : t.val = (i 0).val / 1000 := rfl
  obtain ⟨-, -, -, -, e4, e5⟩ := index_facts t
  refine ⟨t, flush1_2 t, ?_⟩
  rw [mem_block]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- THE REGION'S OUTPUT ARRAY after its fifty points: `max (A + b1) 0`, entry by entry, of the first edge sum and the bias row. -/
theorem array_eq (c : Dev nD) : (dat1 V c).arrAt 2 cfg1.N = Cert.Stages.biasRelu (V c main_v13) (V c main_v14) :=
  (dat1 V c).arrAt_eq_of_cover 2 _ (fun t _ => flushed_eq V c t) covered

end Cert.KernelIdeal.Region1

end
-- ==== Proof.Region2.lean ====
/-
  The second dense product's region: its output array is `h · W2`.

  The region runs its body once per block of 1000 rows: at point `t` the left window holds rows t·1000 … t·1000 + 999 of
  its array, the right window holds its whole array (its block index never moves), and the body's result is written back
  as rows t·1000 … t·1000 + 999 of the output array. The 50 blocks tile the 50000 rows, so the output array ends as the
  one whole-array function whose every block is what the body computes from the corresponding block: `h · W2` of the hidden features and the second weights.
-/
import proofs.«110425_j50302656971586_1_alg».proof.Proof.Gen.KernelIdeal.Frame
import proofs.«110425_j50302656971586_1_alg».proof.Proof.DenseBlocks
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has fifty points. -/
theorem point_lt (t : Fin cfg2.N) : t.val < 50 := lt_of_lt_of_eq t.isLt (N_2 : cfg2.N = 50)

/-- The printed index maps over the grid: the left and the output window sit at block (t, 0), the right window at (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The right window's block is its whole array at every point. -/
theorem right_block (c : Dev nD) (t : Fin cfg2.N) : iblk2 V c 1 t = V c main_arg3 := by
  obtain ⟨-, -, e2, e3, -, -⟩ := index_facts t
  funext y
  show V c main_arg3 (((cfg2.win 1).blk t).view.emb y) = V c main_arg3 y
  refine congrArg (V c main_arg3) (funext fun a => Fin.ext ?_)
  match a with
  | ⟨0, _⟩ => show win2_1.index t (0 : Fin 2) * 128 + 1 * (y 0).val = (y 0).val; omega
  | ⟨1, _⟩ => show win2_1.index t (1 : Fin 2) * 40 + 1 * (y 1).val = (y 1).val; omega

/-- Row `r` of the left window's block at point `t` is row t·1000 + r of its array. -/
theorem left_block (c : Dev nD) (t : Fin cfg2.N) (r : Fin 1000) (k : Fin 128) :
    iblk2 V c 0 t (ix2 r k) = V c main_v15 (ix2 (⟨t.val * 1000 + r.val, by have := r.isLt; have := point_lt t; omega⟩ : Fin 50000) k) := by
  obtain ⟨e0, e1, -, -, -, -⟩ := index_facts t
  show V c main_v15 (((cfg2.win 0).blk t).view.emb (ix2 r k)) = _
  refine congrArg (V c main_v15) (funext fun a => Fin.ext ?_)
  match a with
  | ⟨0, _⟩ => show win2_0.index t (0 : Fin 2) * 1000 + 1 * r.val = t.val * 1000 + r.val; omega
  | ⟨1, _⟩ => show win2_0.index t (1 : Fin 2) * 128 + 1 * k.val = k.val; omega

/-- Entry (r, q) of the output window's block at point `t` sits at (t·1000 + r, q) of the output array. -/
theorem out_emb (t : Fin cfg2.N) (j : S1000x40.Idx) :
    ((cfg2.win 2).blk t).view.emb j = ix2 (⟨t.val * 1000 + (j 0).val, by have h0 : (j 0).val < 1000 := (j 0).isLt; have := point_lt t; omega⟩ : Fin 50000) (j 1) := by
  obtain ⟨-, -, -, -, e4, e5⟩ := index_facts t
  funext a; apply Fin.ext
  match a with
  | ⟨0, _⟩ => show win2_2.index t (0 : Fin 2) * 1000 + 1 * (j 0).val = t.val * 1000 + (j 0).val; omega
  | ⟨1, _⟩ => show win2_2.index t (1 : Fin 2) * 40 + 1 * (j 1).val = (j 1).val; omega

/-- What point `t` writes back is block `t` of the whole-array function of the arrays the region finds. -/
theorem flushed_eq (c : Dev nD) (t : Fin cfg2.N) :
    (dat2 V c).flushed 2 t = ((cfg2.win 2).blk t).view.read (Elt Ideal) (Cert.Stages.dense2 (V c main_v15) (V c main_arg3)) := by
  show (cfg2.win 2).cut (grid2.coords t) ((dat2 V c).after 2 t) = _
  rw [after2_2]
  unfold out2_2
  rw [View.canon_unit_zero origin]
  simp only [View.ld_unit_zero (S := S1000x128) origin, View.ld_unit_zero (S := S128x40) origin]
  rw [right_block V c t]
  funext j
  show k2_pay1 (F := Ideal) (iblk2 V c 0 t) (V c main_arg3) j = Cert.Stages.dense2 (V c main_v15) (V c main_arg3) (((cfg2.win 2).blk t).view.emb j)
  rw [out_emb t j]
  have hj : j = ix2 (j 0) (j 1) := eq_ix2 j
  rw [hj]
  exact DenseBlocks.dense2_block (V c main_v15) (V c main_arg3) (iblk2 V c 0 t) t.val (point_lt t) (left_block V c t) (j 0) (j 1)

/-- An index of the output array is in point `t`'s block iff each coordinate is in the block's range on its axis. -/
theorem mem_block (t : Fin cfg2.N) (i : S50000x40.Idx) :
    i ∈ ((cfg2.win 2).blk t).view.set ↔ ∀ a : Fin 2, win2_2.index t a * S1000x40.size a ≤ (i a).val ∧ (i a).val < win2_2.index t a * S1000x40.size a + S1000x40.size a := by
  show i ∈ ((View.whole main_v16).slice (win2_2.rect t)).set ↔ _
  rw [View.set_slice_whole, Rect.mem_set_unit]
  exact Iff.rfl

/-- Every index of the output array is in the block of the point its row falls in. -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 50 := N_2
  let t : Fin cfg2.N := ⟨(i 0).val / 1000, by rw [hN]; omega⟩
  have htv : t.val = (i 0).val / 1000 := rfl
  obtain ⟨-, -, -, -, e4, e5⟩ := index_facts t
  refine ⟨t, flush2_2 t, ?_⟩
  rw [mem_block]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 40 ≤ (i 1).val ∧ (i 1).val < win2_2.index t (1 : Fin 2) * 40 + 40; omega

/-- THE REGION'S OUTPUT ARRAY after its fifty points: `h · W2` of the hidden features and the second weights. -/
theorem array_eq (c : Dev nD) : (dat2 V c).arrAt 2 cfg2.N = Cert.Stages.dense2 (V c main_v15) (V c main_arg3) :=
  (dat2 V c).arrAt_eq_of_cover 2 _ (fun t _ => flushed_eq V c t) covered

end Cert.KernelIdeal.Region2

end
-- ==== Proof.Region3.lean ====
/-
  The bias-and-log-softmax region: its output array is the rows' log-softmax of `A + b2`.

  The region runs its body once per block of 1000 rows: at point `t` the left window holds rows t·1000 … t·1000 + 999 of
  its array, the right window holds its whole array (its block index never moves), and the body's result is written back
  as rows t·1000 … t·1000 + 999 of the output array. The 50 blocks tile the 50000 rows, so the output array ends as the
  one whole-array function whose every block is what the body computes from the corresponding block: the log-softmax of each row of the second edge sum plus the bias row.
-/
import proofs.«110425_j50302656971586_1_alg».proof.Proof.Gen.KernelIdeal.Frame
import proofs.«110425_j50302656971586_1_alg».proof.Proof.RowBlocks
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has fifty points. -/
theorem point_lt (t : Fin cfg3.N) : t.val < 50 := lt_of_lt_of_eq t.isLt (N_3 : cfg3.N = 50)

/-- The printed index maps over the grid: the left and the output window sit at block (t, 0), the right window at (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The right window's block is its whole array at every point. -/
theorem right_block (c : Dev nD) (t : Fin cfg3.N) : iblk3 V c 1 t = V c main_v30 := by
  obtain ⟨-, -, e2, e3, -, -⟩ := index_facts t
  funext y
  show V c main_v30 (((cfg3.win 1).blk t).view.emb y) = V c main_v30 y
  refine congrArg (V c main_v30) (funext fun a => Fin.ext ?_)
  match a with
  | ⟨0, _⟩ => show win3_1.index t (0 : Fin 2) * 1 + 1 * (y 0).val = (y 0).val; omega
  | ⟨1, _⟩ => show win3_1.index t (1 : Fin 2) * 40 + 1 * (y 1).val = (y 1).val; omega

/-- Row `r` of the left window's block at point `t` is row t·1000 + r of its array. -/
theorem left_block (c : Dev nD) (t : Fin cfg3.N) (r : Fin 1000) (k : Fin 40) :
    iblk3 V c 0 t (ix2 r k) = V c main_v29 (ix2 (⟨t.val * 1000 + r.val, by have := r.isLt; have := point_lt t; omega⟩ : Fin 50000) k) := by
  obtain ⟨e0, e1, -, -, -, -⟩ := index_facts t
  show V c main_v29 (((cfg3.win 0).blk t).view.emb (ix2 r k)) = _
  refine congrArg (V c main_v29) (funext fun a => Fin.ext ?_)
  match a with
  | ⟨0, _⟩ => show win3_0.index t (0 : Fin 2) * 1000 + 1 * r.val = t.val * 1000 + r.val; omega
  | ⟨1, _⟩ => show win3_0.index t (1 : Fin 2) * 40 + 1 * k.val = k.val; omega

/-- Entry (r, q) of the output window's block at point `t` sits at (t·1000 + r, q) of the output array. -/
theorem out_emb (t : Fin cfg3.N) (j : S1000x40.Idx) :
    ((cfg3.win 2).blk t).view.emb j = ix2 (⟨t.val * 1000 + (j 0).val, by have h0 : (j 0).val < 1000 := (j 0).isLt; have := point_lt t; omega⟩ : Fin 50000) (j 1) := by
  obtain ⟨-, -, -, -, e4, e5⟩ := index_facts t
  funext a; apply Fin.ext
  match a with
  | ⟨0, _⟩ => show win3_2.index t (0 : Fin 2) * 1000 + 1 * (j 0).val = t.val * 1000 + (j 0).val; omega
  | ⟨1, _⟩ => show win3_2.index t (1 : Fin 2) * 40 + 1 * (j 1).val = (j 1).val; omega

/-- What point `t` writes back is block `t` of the whole-array function of the arrays the region finds. -/
theorem flushed_eq (c : Dev nD) (t : Fin cfg3.N) :
    (dat3 V c).flushed 2 t = ((cfg3.win 2).blk t).view.read (Elt Ideal) (Cert.Stages.biasLogSoftmax (V c main_v29) (V c main_v30)) := by
  show (cfg3.win 2).cut (grid3.coords t) ((dat3 V c).after 2 t) = _
  rw [after3_2]
  unfold out3_2
  rw [View.canon_unit_zero origin]
  simp only [View.ld_unit_zero (S := S1000x40) origin, View.ld_unit_zero (S := S1x40) origin]
  rw [right_block V c t]
  funext j
  show k3_pay1 (F := Ideal) (iblk3 V c 0 t) (V c main_v30) j = Cert.Stages.biasLogSoftmax (V c main_v29) (V c main_v30) (((cfg3.win 2).blk t).view.emb j)
  rw [out_emb t j]
  have hj : j = ix2 (j 0) (j 1) := eq_ix2 j
  rw [hj]
  exact RowBlocks.biasLogSoftmax_block (V c main_v29) (V c main_v30) (iblk3 V c 0 t) t.val (point_lt t) (left_block V c t) (j 0) (j 1)

/-- An index of the output array is in point `t`'s block iff each coordinate is in the block's range on its axis. -/
theorem mem_block (t : Fin cfg3.N) (i : S50000x40.Idx) :
    i ∈ ((cfg3.win 2).blk t).view.set ↔ ∀ a : Fin 2, win3_2.index t a * S1000x40.size a ≤ (i a).val ∧ (i a).val < win3_2.index t a * S1000x40.size a + S1000x40.size a := by
  show i ∈ ((View.whole main_v31).slice (win3_2.rect t)).set ↔ _
  rw [View.set_slice_whole, Rect.mem_set_unit]
  exact Iff.rfl

/-- Every index of the output array is in the block of the point its row falls in. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 50 := N_3
  let t : Fin cfg3.N := ⟨(i 0).val / 1000, by rw [hN]; omega⟩
  have htv : t.val = (i 0).val / 1000 := rfl
  obtain ⟨-, -, -, -, e4, e5⟩ := index_facts t
  refine ⟨t, flush3_2 t, ?_⟩
  rw [mem_block]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 40 ≤ (i 1).val ∧ (i 1).val < win3_2.index t (1 : Fin 2) * 40 + 40; omega

/-- THE REGION'S OUTPUT ARRAY after its fifty points: the log-softmax of each row of the second edge sum plus the bias row. -/
theorem array_eq (c : Dev nD) : (dat3 V c).arrAt 2 cfg3.N = Cert.Stages.biasLogSoftmax (V c main_v29) (V c main_v30) :=
  (dat3 V c).arrAt_eq_of_cover 2 _ (fun t _ => flushed_eq V c t) covered

end Cert.KernelIdeal.Region3

end
-- ==== Proof.KernelValue.lean ====
/-
  The idealized kernel's result, as a function of the nine arguments.

  The last boundary's contents `W7` are a fold through @main; read at the result buffer and walked back stretch by
  stretch they are the forward pass `Stages.forward` of the launch contents of the arguments:
  the closing stretch picks the rows `idx` of the log-softmax region's output; that region's output is the rows'
  log-softmax of (second edge sum + bias row); the second host stretch leaves the edge sum of the second dense
  product's region and the bias reshaped to one row; and so on back to `x · W1` of the launch contents. Each host
  stretch is the SAME operations as the reference's (read off the fold from any contents), a vector reshaped to one
  row is that vector laid out as one row, each region's output array is its stage function (the regions' own modules),
  and no stretch or region writes an argument it has not yet consumed.
-/
import proofs.«110425_j50302656971586_1_alg».proof.Proof.KernelRun
import proofs.«110425_j50302656971586_1_alg».proof.Proof.Region0
import proofs.«110425_j50302656971586_1_alg».proof.Proof.Region1
import proofs.«110425_j50302656971586_1_alg».proof.Proof.Region2
import proofs.«110425_j50302656971586_1_alg».proof.Proof.Region3
import proofs.«110425_j50302656971586_1_alg».proof.Proof.Stages
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-! ## A vector reshaped to one row is the vector laid out as one row -/

/-- Reshaping `[n]` to `[1, n]` and broadcasting `[n]` along the second axis of `[1, n]` read the same entry at (0, j). -/
theorem reshape_row {α : Type} {n : Nat} (b : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) (hn : n ≠ 1) :
    shapeCast (⟨2, ![1, n]⟩ : Shape) b h1 = broadcastInDim (⟨2, ![1, n]⟩ : Shape) ![1] h2 b := by
  funext j
  refine (shapeCast_addUnit_apply ![n] b h1 j).trans (broadcastInDim_apply ![1] h2 b j (fun a => j a.succ) (fun a => ?_)).symm
  match a with
  | ⟨0, _⟩ => exact (if_neg hn).symm

section Host

variable {F : FTy → Type} [FloatOps F]

/-! ## The host stretches, from any contents -/

/-- The first host stretch leaves the edge sum of the first product at its scatter's buffer … -/
theorem host1_sum (X : Valuation τ sig (Elt F)) :
    after (hostOps1 (F := F)) X (Proc.devRef .tc main_v13) = Cert.Stages.edgeSum128 (X (Proc.devRef .tc main_v0)) (X (Proc.devRef .tc main_arg5))
      (X (Proc.devRef .tc main_arg6)) (X (Proc.devRef .tc main_arg7)) := by
  after_results; rfl

/-- … and the first bias as one row. -/
theorem host1_row (X : Valuation τ sig (Elt F)) :
    after (hostOps1 (F := F)) X (Proc.devRef .tc main_v14) = Cert.Stages.row128 (X (Proc.devRef .tc main_arg2)) := by
  after_results
  exact reshape_row (X (Proc.devRef .tc main_arg2)) _ _ (by decide)

/-- The second host stretch leaves the edge sum of the second product … -/
theorem host3_sum (X : Valuation τ sig (Elt F)) :
    after (hostOps3 (F := F)) X (Proc.devRef .tc main_v29) = Cert.Stages.edgeSum40 (X (Proc.devRef .tc main_v16)) (X (Proc.devRef .tc main_arg5))
      (X (Proc.devRef .tc main_arg6)) (X (Proc.devRef .tc main_arg7)) := by
  after_results; rfl

/-- … and the second bias as one row. -/
theorem host3_row (X : Valuation τ sig (Elt F)) :
    after (hostOps3 (F := F)) X (Proc.devRef .tc main_v30) = Cert.Stages.row40 (X (Proc.devRef .tc main_arg4)) := by
  after_results
  exact reshape_row (X (Proc.devRef .tc main_arg4)) _ _ (by decide)

/-- The closing stretch picks the rows `idx` of the last region's output. -/
theorem host4_pick (X : Valuation τ sig (Elt F)) :
    after (hostOps4 (F := F)) X (Proc.devRef .tc main_v38) = Cert.Stages.pickRows (X (Proc.devRef .tc main_v31)) (X (Proc.devRef .tc main_arg8)) := by
  after_results; rfl

/-! ## No host stretch writes an argument -/

theorem host1_keep_arg2 (X : Valuation τ sig (Elt F)) : after (hostOps1 (F := F)) X (Proc.devRef .tc main_arg2) = X (Proc.devRef .tc main_arg2) := by
  after_results
theorem host1_keep_arg3 (X : Valuation τ sig (Elt F)) : after (hostOps1 (F := F)) X (Proc.devRef .tc main_arg3) = X (Proc.devRef .tc main_arg3) := by
  after_results
theorem host1_keep_arg4 (X : Valuation τ sig (Elt F)) : after (hostOps1 (F := F)) X (Proc.devRef .tc main_arg4) = X (Proc.devRef .tc main_arg4) := by
  after_results
theorem host1_keep_arg5 (X : Valuation τ sig (Elt F)) : after (hostOps1 (F := F)) X (Proc.devRef .tc main_arg5) = X (Proc.devRef .tc main_arg5) := by
  after_results
theorem host1_keep_arg6 (X : Valuation τ sig (Elt F)) : after (hostOps1 (F := F)) X (Proc.devRef .tc main_arg6) = X (Proc.devRef .tc main_arg6) := by
  after_results
theorem host1_keep_arg7 (X : Valuation τ sig (Elt F)) : after (hostOps1 (F := F)) X (Proc.devRef .tc main_arg7) = X (Proc.devRef .tc main_arg7) := by
  after_results
theorem host1_keep_arg8 (X : Valuation τ sig (Elt F)) : after (hostOps1 (F := F)) X (Proc.devRef .tc main_arg8) = X (Proc.devRef .tc main_arg8) := by
  after_results
theorem host3_keep_arg8 (X : Valuation τ sig (Elt F)) : after (hostOps3 (F := F)) X (Proc.devRef .tc main_arg8) = X (Proc.devRef .tc main_arg8) := by
  after_results

end Host

/-! ## The arguments through the fold -/

variable (m : (ℓ : Loc nD τ sig) → Buf (Elt Ideal) ℓ) (ρ : Dev nD → PrngReg)

theorem W1_arg2 (c : Dev nD) : W1 m ρ c (Proc.devRef .tc main_arg2) = m ((c.tc : Thread nD τ).loc main_arg2) :=
  W1_of_ne m ρ c main_arg2 (by decide)
theorem W1_arg3 (c : Dev nD) : W1 m ρ c (Proc.devRef .tc main_arg3) = m ((c.tc : Thread nD τ).loc main_arg3) :=
  W1_of_ne m ρ c main_arg3 (by decide)
theorem W1_arg4 (c : Dev nD) : W1 m ρ c (Proc.devRef .tc main_arg4) = m ((c.tc : Thread nD τ).loc main_arg4) :=
  W1_of_ne m ρ c main_arg4 (by decide)
theorem W1_arg5 (c : Dev nD) : W1 m ρ c (Proc.devRef .tc main_arg5) = m ((c.tc : Thread nD τ).loc main_arg5) :=
  W1_of_ne m ρ c main_arg5 (by decide)
theorem W1_arg6 (c : Dev nD) : W1 m ρ c (Proc.devRef .tc main_arg6) = m ((c.tc : Thread nD τ).loc main_arg6) :=
  W1_of_ne m ρ c main_arg6 (by decide)
theorem W1_arg7 (c : Dev nD) : W1 m ρ c (Proc.devRef .tc main_arg7) = m ((c.tc : Thread nD τ).loc main_arg7) :=
  W1_of_ne m ρ c main_arg7 (by decide)
theorem W1_arg8 (c : Dev nD) : W1 m ρ c (Proc.devRef .tc main_arg8) = m ((c.tc : Thread nD τ).loc main_arg8) :=
  W1_of_ne m ρ c main_arg8 (by decide)
theorem W2_arg2 (c : Dev nD) : W2 m ρ c (Proc.devRef .tc main_arg2) = m ((c.tc : Thread nD τ).loc main_arg2) :=
  (host1_keep_arg2 (W1 m ρ c)).trans (W1_arg2 m ρ c)
theorem W2_arg3 (c : Dev nD) : W2 m ρ c (Proc.devRef .tc main_arg3) = m ((c.tc : Thread nD τ).loc main_arg3) :=
  (host1_keep_arg3 (W1 m ρ c)).trans (W1_arg3 m ρ c)
theorem W2_arg4 (c : Dev nD) : W2 m ρ c (Proc.devRef .tc main_arg4) = m ((c.tc : Thread nD τ).loc main_arg4) :=
  (host1_keep_arg4 (W1 m ρ c)).trans (W1_arg4 m ρ c)
theorem W2_arg5 (c : Dev nD) : W2 m ρ c (Proc.devRef .tc main_arg5) = m ((c.tc : Thread nD τ).loc main_arg5) :=
  (host1_keep_arg5 (W1 m ρ c)).trans (W1_arg5 m ρ c)
theorem W2_arg6 (c : Dev nD) : W2 m ρ c (Proc.devRef .tc main_arg6) = m ((c.tc : Thread nD τ).loc main_arg6) :=
  (host1_keep_arg6 (W1 m ρ c)).trans (W1_arg6 m ρ c)
theorem W2_arg7 (c : Dev nD) : W2 m ρ c (Proc.devRef .tc main_arg7) = m ((c.tc : Thread nD τ).loc main_arg7) :=
  (host1_keep_arg7 (W1 m ρ c)).trans (W1_arg7 m ρ c)
theorem W2_arg8 (c : Dev nD) : W2 m ρ c (Proc.devRef .tc main_arg8) = m ((c.tc : Thread nD τ).loc main_arg8) :=
  (host1_keep_arg8 (W1 m ρ c)).trans (W1_arg8 m ρ c)
theorem W3_arg3 (c : Dev nD) : W3 m ρ c (Proc.devRef .tc main_arg3) = m ((c.tc : Thread nD τ).loc main_arg3) :=
  (W3_of_ne m ρ c main_arg3 (by decide)).trans (W2_arg3 m ρ c)
theorem W3_arg4 (c : Dev nD) : W3 m ρ c (Proc.devRef .tc main_arg4) = m ((c.tc : Thread nD τ).loc main_arg4) :=
  (W3_of_ne m ρ c main_arg4 (by decide)).trans (W2_arg4 m ρ c)
theorem W3_arg5 (c : Dev nD) : W3 m ρ c (Proc.devRef .tc main_arg5) = m ((c.tc : Thread nD τ).loc main_arg5) :=
  (W3_of_ne m ρ c main_arg5 (by decide)).trans (W2_arg5 m ρ c)
theorem W3_arg6 (c : Dev nD) : W3 m ρ c (Proc.devRef .tc main_arg6) = m ((c.tc : Thread nD τ).loc main_arg6) :=
  (W3_of_ne m ρ c main_arg6 (by decide)).trans (W2_arg6 m ρ c)
theorem W3_arg7 (c : Dev nD) : W3 m ρ c (Proc.devRef .tc main_arg7) = m ((c.tc : Thread nD τ).loc main_arg7) :=
  (W3_of_ne m ρ c main_arg7 (by decide)).trans (W2_arg7 m ρ c)
theorem W3_arg8 (c : Dev nD) : W3 m ρ c (Proc.devRef .tc main_arg8) = m ((c.tc : Thread nD τ).loc main_arg8) :=
  (W3_of_ne m ρ c main_arg8 (by decide)).trans (W2_arg8 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)
theorem W5_arg8 (c : Dev nD) : W5 m ρ c (Proc.devRef .tc main_arg8) = m ((c.tc : Thread nD τ).loc main_arg8) :=
  (host3_keep_arg8 (W4 m ρ c)).trans (W4_arg8 m ρ c)
theorem W6_arg8 (c : Dev nD) : W6 m ρ c (Proc.devRef .tc main_arg8) = m ((c.tc : Thread nD τ).loc main_arg8) :=
  (W6_of_ne m ρ c main_arg8 (by decide)).trans (W5_arg8 m ρ c)

/-! ## The result -/

/-- After the first region: `x · W1` of the launch contents. -/
theorem W1_product (c : Dev nD) : W1 m ρ c (Proc.devRef .tc main_v0)
    = Cert.Stages.dense1 (m ((c.tc : Thread nD τ).loc main_arg0)) (m ((c.tc : Thread nD τ).loc main_arg1)) :=
  (W1_arr m ρ c 2).trans (Region0.array_eq (V0 m ρ) c)

/-- After the bias-and-ReLU region: the hidden features. -/
theorem W3_hidden (c : Dev nD) : W3 m ρ c (Proc.devRef .tc main_v15)
    = Cert.Stages.biasRelu (Cert.Stages.edgeSum128 (Cert.Stages.dense1 (m ((c.tc : Thread nD τ).loc main_arg0)) (m ((c.tc : Thread nD τ).loc main_arg1)))
        (m ((c.tc : Thread nD τ).loc main_arg5)) (m ((c.tc : Thread nD τ).loc main_arg6)) (m ((c.tc : Thread nD τ).loc main_arg7)))
      (Cert.Stages.row128 (m ((c.tc : Thread nD τ).loc main_arg2))) := by
  refine ((W3_arr m ρ c 2).trans (Region1.array_eq (V2 m ρ) c)).trans ?_
  show Cert.Stages.biasRelu (after hostOps1 (W1 m ρ c) (Proc.devRef .tc main_v13)) (after hostOps1 (W1 m ρ c) (Proc.devRef .tc main_v14)) = _
  rw [host1_sum, host1_row, W1_product, W1_arg5, W1_arg6, W1_arg7, W1_arg2]

/-- After the second product's region. -/
theorem W4_product (c : Dev nD) : W4 m ρ c (Proc.devRef .tc main_v16)
    = Cert.Stages.dense2 (Cert.Stages.biasRelu (Cert.Stages.edgeSum128 (Cert.Stages.dense1 (m ((c.tc : Thread nD τ).loc main_arg0)) (m ((c.tc : Thread nD τ).loc main_arg1)))
        (m ((c.tc : Thread nD τ).loc main_arg5)) (m ((c.tc : Thread nD τ).loc main_arg6)) (m ((c.tc : Thread nD τ).loc main_arg7)))
      (Cert.Stages.row128 (m ((c.tc : Thread nD τ).loc main_arg2)))) (m ((c.tc : Thread nD τ).loc main_arg3)) := by
  refine ((W4_arr m ρ c 2).trans (Region2.array_eq (V3 m ρ) c)).trans ?_
  show Cert.Stages.dense2 (W3 m ρ c (Proc.devRef .tc main_v15)) (W3 m ρ c (Proc.devRef .tc main_arg3)) = _
  rw [W3_hidden, W3_arg3]

/-- After the log-softmax region. -/
theorem W6_logp (c : Dev nD) : W6 m ρ c (Proc.devRef .tc main_v31)
    = Cert.Stages.biasLogSoftmax (Cert.Stages.edgeSum40 (Cert.Stages.dense2 (Cert.Stages.biasRelu (Cert.Stages.edgeSum128 (Cert.Stages.dense1 (m ((c.tc : Thread nD τ).loc main_arg0)) (m ((c.tc : Thread nD τ).loc main_arg1)))
        (m ((c.tc : Thread nD τ).loc main_arg5)) (m ((c.tc : Thread nD τ).loc main_arg6)) (m ((c.tc : Thread nD τ).loc main_arg7)))
      (Cert.Stages.row128 (m ((c.tc : Thread nD τ).loc main_arg2)))) (m ((c.tc : Thread nD τ).loc main_arg3)))
      (m ((c.tc : Thread nD τ).loc main_arg5)) (m ((c.tc : Thread nD τ).loc main_arg6)) (m ((c.tc : Thread nD τ).loc main_arg7)))
      (Cert.Stages.row40 (m ((c.tc : Thread nD τ).loc main_arg4))) := by
  refine ((W6_arr m ρ c 2).trans (Region3.array_eq (V5 m ρ) c)).trans ?_
  show Cert.Stages.biasLogSoftmax (after hostOps3 (W4 m ρ c) (Proc.devRef .tc main_v29)) (after hostOps3 (W4 m ρ c) (Proc.devRef .tc main_v30)) = _
  rw [host3_sum, host3_row, W4_product, W4_arg5, W4_arg6, W4_arg7, W4_arg4]

/-- THE RESULT: the last boundary's contents at the result buffer are the forward pass of the launch contents. -/
theorem result_value (c : Dev nD) : W7 m ρ c (Proc.devRef .tc main_v38)
    = Cert.Stages.forward (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  show after hostOps4 (W6 m ρ c) (Proc.devRef .tc main_v38) = _
  rw [host4_pick, W6_logp, W6_arg8]
  rfl

/-- THE RUN, READ: every weakly fair execution of the idealized kernel's @main terminates with the result buffer at the
    forward pass of the launch contents of the arguments, and the arguments unchanged. -/
theorem run_forward : θ_run defs (onTc (τ := τ) (main (F := Ideal))) ⟨m, fun _ => 0, ρ⟩ (fun r => ∀ c : Dev nD,
      r.2.mem ((c.tc : Thread nD τ).loc main_v38)
        = Cert.Stages.forward (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ c), (h c).2⟩) (run_result m ρ)

end Cert.KernelIdeal.Whole

end
-- ==== Proof.ReferenceValue.lean ====
/-
  The reference's run, read stage by stage.

  The reference's @main is a straight line of 67 host operations, so every weakly fair execution ends with each buffer
  at the FOLD of the operations' results over the launch contents. The line is seven stretches (the sixth read in six steps) — the first dense product;
  the first edge sum (index wrap, gather, weight, scatter-add); bias and ReLU; the second dense product; the second edge
  sum; bias and log-softmax; the row pick — and each stretch, from ANY contents `W`, leaves its result buffer at its
  stage function of the few buffers it reads and does not touch the arguments. Chained, the result buffer ends at
  `Stages.forward` of the nine arguments.
-/
import proofs.«110425_j50302656971586_1_alg».proof.Proof.ReferenceOpsP
import proofs.«110425_j50302656971586_1_alg».proof.Proof.Stages
import Idealize.ShloMosaic.Lib.StableHlo.Run

set_option maxRecDepth 16384

noncomputable section

namespace Cert.ReferenceIdeal.Whole

open Cert.ReferenceIdeal Cert.ReferenceIdeal.Gen Cert.ReferenceIdeal.ValueP
open Idealize.ShloMosaic Idealize.ShloMosaic.TcCoe Idealize.SL.Sem Idealize.ShloMosaic.StableHlo
open Cert.Stages

variable {F : FTy → Type} [FloatOps F]

/-- Two lines of operations run one after the other fold as their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-! ## The seven stretches of @main -/

/-- `x · W1`. -/
def sA : List (HloOp τ sig (Elt F)) := (ops (F := F)).take 1
/-- The first edge sum: operations 1 … 16. -/
def sB : List (HloOp τ sig (Elt F)) := ((ops (F := F)).drop 1).take 16
/-- Bias and ReLU: operations 17 … 22. -/
def sC : List (HloOp τ sig (Elt F)) := ((ops (F := F)).drop 17).take 6
/-- `h · W2`. -/
def sD : List (HloOp τ sig (Elt F)) := ((ops (F := F)).drop 23).take 1
/-- The second edge sum: operations 24 … 39. -/
def sE : List (HloOp τ sig (Elt F)) := ((ops (F := F)).drop 24).take 16
/-- The row pick: operations 58 … 66. -/
def sG : List (HloOp τ sig (Elt F)) := (ops (F := F)).drop 58

/-! ### The bias-and-log-softmax stretch, in six steps (operations 40 … 57) -/

/-- The bias row laid under every row and added: operations 40 … 42. -/
def sF1 : List (HloOp τ sig (Elt F)) := ((ops (F := F)).drop 40).take 3
/-- The rows' maxima folded from −∞: operations 43, 44. -/
def sF2a : List (HloOp τ sig (Elt F)) := ((ops (F := F)).drop 43).take 2
/-- … and their maximum with −∞ once more: operations 45 … 47. -/
def sF2b : List (HloOp τ sig (Elt F)) := ((ops (F := F)).drop 45).take 3
/-- Each row minus its maximum: operations 48 … 50. -/
def sF3 : List (HloOp τ sig (Elt F)) := ((ops (F := F)).drop 48).take 3
/-- The rows' sums of exponentials: operations 51 … 53. -/
def sF4 : List (HloOp τ sig (Elt F)) := ((ops (F := F)).drop 51).take 3
/-- Minus the logarithm of the row's sum: operations 54 … 57. -/
def sF5 : List (HloOp τ sig (Elt F)) := ((ops (F := F)).drop 54).take 4

/-- @main's line is the stretches in order (the log-softmax stretch in its six steps), so its fold is theirs, composed. -/
theorem fold_split (W : Valuation τ sig (Elt F)) :
    after (ops (F := F)) W = after sG (after sF5 (after sF4 (after sF3 (after sF2b (after sF2a (after sF1 (after sE (after sD (after sC (after sB (after sA W))))))))))) := by
  show after (sA ++ (sB ++ (sC ++ (sD ++ (sE ++ (sF1 ++ (sF2a ++ (sF2b ++ (sF3 ++ (sF4 ++ (sF5 ++ sG))))))))))) W = _
  simp only [after_append]

/-! ## What each stretch leaves in its result buffer, from any contents -/

theorem stageA (W : Valuation τ sig (Elt F)) :
    after (sA (F := F)) W (Proc.devRef .tc main_v0) = dense1 (W (Proc.devRef .tc main_arg0)) (W (Proc.devRef .tc main_arg1)) := by
  unfold sA; simp only [ops, List.drop_succ_cons, List.drop_zero, List.take_succ_cons, List.take_zero]; after_results; unfold dense1; rfl

theorem stageB (W : Valuation τ sig (Elt F)) :
    after (sB (F := F)) W (Proc.devRef .tc main_v13) = edgeSum128 (W (Proc.devRef .tc main_v0)) (W (Proc.devRef .tc main_arg5))
      (W (Proc.devRef .tc main_arg6)) (W (Proc.devRef .tc main_arg7)) := by
  unfold sB; simp only [ops, List.drop_succ_cons, List.drop_zero, List.take_succ_cons, List.take_zero]; after_results; rfl

theorem stageC (W : Valuation τ sig (Elt F)) :
    after (sC (F := F)) W (Proc.devRef .tc main_v17) = biasRelu (W (Proc.devRef .tc main_v13)) (row128 (W (Proc.devRef .tc main_arg2))) := by
  unfold sC; simp only [ops, List.drop_succ_cons, List.drop_zero, List.take_succ_cons, List.take_zero]; after_results_simp; rfl

theorem stageD (W : Valuation τ sig (Elt F)) :
    after (sD (F := F)) W (Proc.devRef .tc main_v18) = dense2 (W (Proc.devRef .tc main_v17)) (W (Proc.devRef .tc main_arg3)) := by
  unfold sD; simp only [ops, List.drop_succ_cons, List.drop_zero, List.take_succ_cons, List.take_zero]; after_results; unfold dense2; rfl

set_option maxHeartbeats 1600000 in
theorem stageE (W : Valuation τ sig (Elt F)) :
    after (sE (F := F)) W (Proc.devRef .tc main_v31) = edgeSum40 (W (Proc.devRef .tc main_v18)) (W (Proc.devRef .tc main_arg5))
      (W (Proc.devRef .tc main_arg6)) (W (Proc.devRef .tc main_arg7)) := by
  unfold sE; simp only [ops, List.drop_succ_cons, List.drop_zero, List.take_succ_cons, List.take_zero]; after_results_simp; unfold edgeSum40 wrapEdge; rfl

theorem stageF1 (W : Valuation τ sig (Elt F)) :
    after (sF1 (F := F)) W (Proc.devRef .tc main_v34) = (addf : Fl F S50000x40 → Fl F S50000x40 → Fl F S50000x40) (W (Proc.devRef .tc main_v31))
      (broadcastInDim S50000x40 ![0, 1] bcast_S1x40_S50000x40_0_1 (row40 (W (Proc.devRef .tc main_arg4)))) := by
  unfold sF1; simp only [ops, List.drop_succ_cons, List.drop_zero, List.take_succ_cons, List.take_zero]; after_results; unfold row40; rfl

theorem stageF2a (W : Valuation τ sig (Elt F)) :
    after (sF2a (F := F)) W (Proc.devRef .tc main_call1_v0) = (Host.reduce FloatOps.maximumf (W (Proc.devRef .tc main_v34) : Fl F S50000x40)
      (constant S_ .f32 0xFF800000#32) reducesTo_S50000x40_S50000_d1 h_S_ : Fl F S50000) := by
  unfold sF2a; simp only [ops, List.drop_succ_cons, List.drop_zero, List.take_succ_cons, List.take_zero]
  after_results_simp
  dsimp only [TRef.toBuf, TRef.ofBuf]
  simp only [cast_eq]

theorem stageF2b (W : Valuation τ sig (Elt F)) :
    after (sF2b (F := F)) W (Proc.devRef .tc main_call1_v2) = (maximumf : Fl F S50000 → Fl F S50000 → Fl F S50000)
      (broadcastInDim S50000 ![] bcast_S_S50000 (constant S_ .f32 0xFF800000#32)) (W (Proc.devRef .tc main_call1_v0) : Fl F S50000) := by
  unfold sF2b; simp only [ops, List.drop_succ_cons, List.drop_zero, List.take_succ_cons, List.take_zero]; after_results_simp; rfl

theorem keepF2a_v34 (W : Valuation τ sig (Elt F)) : after (sF2a (F := F)) W (Proc.devRef .tc main_v34) = W (Proc.devRef .tc main_v34) := by
  unfold sF2a; simp only [ops, List.drop_succ_cons, List.drop_zero, List.take_succ_cons, List.take_zero]; after_results_simp

theorem keepF2b_v34 (W : Valuation τ sig (Elt F)) : after (sF2b (F := F)) W (Proc.devRef .tc main_v34) = W (Proc.devRef .tc main_v34) := by
  unfold sF2b; simp only [ops, List.drop_succ_cons, List.drop_zero, List.take_succ_cons, List.take_zero]; after_results_simp

theorem stageF3 (W : Valuation τ sig (Elt F)) :
    after (sF3 (F := F)) W (Proc.devRef .tc main_call1_v5) = (subf : Fl F S50000x40 → Fl F S50000x40 → Fl F S50000x40) (W (Proc.devRef .tc main_v34))
      (broadcastInDim S50000x40 ![0, 1] bcast_S50000x1_S50000x40_0_1
        (broadcastInDim S50000x1 ![0] bcast_S50000_S50000x1_0 (W (Proc.devRef .tc main_call1_v2) : Fl F S50000))) := by
  unfold sF3; simp only [ops, List.drop_succ_cons, List.drop_zero, List.take_succ_cons, List.take_zero]; after_results_simp; rfl

theorem stageF4 (W : Valuation τ sig (Elt F)) :
    after (sF4 (F := F)) W (Proc.devRef .tc main_call1_v7)
      = (Host.reduceAdd (Host.exp (W (Proc.devRef .tc main_call1_v5) : Fl F S50000x40) : Fl F S50000x40) (constant S_ .f32 0x00000000#32)
          reducesTo_S50000x40_S50000_d1 h_S_ : Fl F S50000) := by
  unfold sF4; simp only [ops, List.drop_succ_cons, List.drop_zero, List.take_succ_cons, List.take_zero]; after_results_simp; rfl

theorem keepF4_v5 (W : Valuation τ sig (Elt F)) : after (sF4 (F := F)) W (Proc.devRef .tc main_call1_v5) = W (Proc.devRef .tc main_call1_v5) := by
  unfold sF4; simp only [ops, List.drop_succ_cons, List.drop_zero, List.take_succ_cons, List.take_zero]; after_results_simp

theorem stageF5 (W : Valuation τ sig (Elt F)) :
    after (sF5 (F := F)) W (Proc.devRef .tc main_v35) = (subf : Fl F S50000x40 → Fl F S50000x40 → Fl F S50000x40) (W (Proc.devRef .tc main_call1_v5))
      (broadcastInDim S50000x40 ![0, 1] bcast_S50000x1_S50000x40_0_1
        (Host.log (broadcastInDim S50000x1 ![0] bcast_S50000_S50000x1_0 (W (Proc.devRef .tc main_call1_v7) : Fl F S50000) : Fl F S50000x1))) := by
  unfold sF5; simp only [ops, List.drop_succ_cons, List.drop_zero, List.take_succ_cons, List.take_zero]; after_results_simp; rfl

/-- The six steps composed: the rows' log-softmax of the edge sum plus the bias row. -/
theorem stageF (W : Valuation τ sig (Elt F)) :
    after (sF5 (F := F)) (after sF4 (after sF3 (after sF2b (after sF2a (after sF1 W))))) (Proc.devRef .tc main_v35)
      = biasLogSoftmax (W (Proc.devRef .tc main_v31)) (row40 (W (Proc.devRef .tc main_arg4))) := by
  rw [stageF5, stageF4, keepF4_v5, stageF3, stageF2b, stageF2a, keepF2b_v34, keepF2a_v34, stageF1]
  unfold biasLogSoftmax logSoftmaxRows
  rfl

theorem stageG (W : Valuation τ sig (Elt F)) :
    after (sG (F := F)) W (Proc.devRef .tc main_v42) = pickRows (W (Proc.devRef .tc main_v35)) (W (Proc.devRef .tc main_arg8)) := by
  unfold sG; simp only [ops, List.drop_succ_cons, List.drop_zero, List.take_succ_cons, List.take_zero]; after_results; rfl

/-! ## No stretch writes an argument -/

theorem keepA_arg2 (W : Valuation τ sig (Elt F)) : after (sA (F := F)) W (Proc.devRef .tc main_arg2) = W (Proc.devRef .tc main_arg2) := by
  unfold sA; simp only [ops, List.drop_succ_cons, List.drop_zero, List.take_succ_cons, List.take_zero]; after_results
theorem keepA_arg3 (W : Valuation τ sig (Elt F)) : after (sA (F := F)) W (Proc.devRef .tc main_arg3) = W (Proc.devRef .tc main_arg3) := by
  unfold sA; simp only [ops, List.drop_succ_cons, List.drop_zero, List.take_succ_cons, List.take_zero]; after_results
theorem keepA_arg4 (W : Valuation τ sig (Elt F)) : after (sA (F := F)) W (Proc.devRef .tc main_arg4) = W (Proc.devRef .tc main_arg4) := by
  unfold sA; simp only [ops, List.drop_succ_cons, List.drop_zero, List.take_succ_cons, List.take_zero]; after_results
theorem keepA_arg5 (W : Valuation τ sig (Elt F)) : after (sA (F := F)) W (Proc.devRef .tc main_arg5) = W (Proc.devRef .tc main_arg5) := by
  unfold sA; simp only [ops, List.drop_succ_cons, List.drop_zero, List.take_succ_cons, List.take_zero]; after_results
theorem keepA_arg6 (W : Valuation τ sig (Elt F)) : after (sA (F := F)) W (Proc.devRef .tc main_arg6) = W (Proc.devRef .tc main_arg6) := by
  unfold sA; simp only [ops, List.drop_succ_cons, List.drop_zero, List.take_succ_cons, List.take_zero]; after_results
theorem keepA_arg7 (W : Valuation τ sig (Elt F)) : after (sA (F := F)) W (Proc.devRef .tc main_arg7) = W (Proc.devRef .tc main_arg7) := by
  unfold sA; simp only [ops, List.drop_succ_cons, List.drop_zero, List.take_succ_cons, List.take_zero]; after_results
theorem keepA_arg8 (W : Valuation τ sig (Elt F)) : after (sA (F := F)) W (Proc.devRef .tc main_arg8) = W (Proc.devRef .tc main_arg8) := by
  unfold sA; simp only [ops, List.drop_succ_cons, List.drop_zero, List.take_succ_cons, List.take_zero]; after_results
theorem keepB_arg2 (W : Valuation τ sig (Elt F)) : after (sB (F := F)) W (Proc.devRef .tc main_arg2) = W (Proc.devRef .tc main_arg2) := by
  unfold sB; simp only [ops, List.drop_succ_cons, List.drop_zero, List.take_succ_cons, List.take_zero]; after_results
theorem keepB_arg3 (W : Valuation τ sig (Elt F)) : after (sB (F := F)) W (Proc.devRef .tc main_arg3) = W (Proc.devRef .tc main_arg3) := by
  unfold sB; simp only [ops, List.drop_succ_cons, List.drop_zero, List.take_succ_cons, List.take_zero]; after_results
theorem keepB_arg4 (W : Valuation τ sig (Elt F)) : after (sB (F := F)) W (Proc.devRef .tc main_arg4) = W (Proc.devRef .tc main_arg4) := by
  unfold sB; simp only [ops, List.drop_succ_cons, List.drop_zero, List.take_succ_cons, List.take_zero]; after_results
theorem keepB_arg5 (W : Valuation τ sig (Elt F)) : after (sB (F := F)) W (Proc.devRef .tc main_arg5) = W (Proc.devRef .tc main_arg5) := by
  unfold sB; simp only [ops, List.drop_succ_cons, List.drop_zero, List.take_succ_cons, List.take_zero]; after_results
theorem keepB_arg6 (W : Valuation τ sig (Elt F)) : after (sB (F := F)) W (Proc.devRef .tc main_arg6) = W (Proc.devRef .tc main_arg6) := by
  unfold sB; simp only [ops, List.drop_succ_cons, List.drop_zero, List.take_succ_cons, List.take_zero]; after_results
theorem keepB_arg7 (W : Valuation τ sig (Elt F)) : after (sB (F := F)) W (Proc.devRef .tc main_arg7) = W (Proc.devRef .tc main_arg7) := by
  unfold sB; simp only [ops, List.drop_succ_cons, List.drop_zero, List.take_succ_cons, List.take_zero]; after_results
theorem keepB_arg8 (W : Valuation τ sig (Elt F)) : after (sB (F := F)) W (Proc.devRef .tc main_arg8) = W (Proc.devRef .tc main_arg8) := by
  unfold sB; simp only [ops, List.drop_succ_cons, List.drop_zero, List.take_succ_cons, List.take_zero]; after_results
theorem keepC_arg3 (W : Valuation τ sig (Elt F)) : after (sC (F := F)) W (Proc.devRef .tc main_arg3) = W (Proc.devRef .tc main_arg3) := by
  unfold sC; simp only [ops, List.drop_succ_cons, List.drop_zero, List.take_succ_cons, List.take_zero]; after_results_simp
theorem keepC_arg4 (W : Valuation τ sig (Elt F)) : after (sC (F := F)) W (Proc.devRef .tc main_arg4) = W (Proc.devRef .tc main_arg4) := by
  unfold sC; simp only [ops, List.drop_succ_cons, List.drop_zero, List.take_succ_cons, List.take_zero]; after_results_simp
theorem keepC_arg5 (W : Valuation τ sig (Elt F)) : after (sC (F := F)) W (Proc.devRef .tc main_arg5) = W (Proc.devRef .tc main_arg5) := by
  unfold sC; simp only [ops, List.drop_succ_cons, List.drop_zero, List.take_succ_cons, List.take_zero]; after_results_simp
theorem keepC_arg6 (W : Valuation τ sig (Elt F)) : after (sC (F := F)) W (Proc.devRef .tc main_arg6) = W (Proc.devRef .tc main_arg6) := by
  unfold sC; simp only [ops, List.drop_succ_cons, List.drop_zero, List.take_succ_cons, List.take_zero]; after_results_simp
theorem keepC_arg7 (W : Valuation τ sig (Elt F)) : after (sC (F := F)) W (Proc.devRef .tc main_arg7) = W (Proc.devRef .tc main_arg7) := by
  unfold sC; simp only [ops, List.drop_succ_cons, List.drop_zero, List.take_succ_cons, List.take_zero]; after_results_simp
theorem keepC_arg8 (W : Valuation τ sig (Elt F)) : after (sC (F := F)) W (Proc.devRef .tc main_arg8) = W (Proc.devRef .tc main_arg8) := by
  unfold sC; simp only [ops, List.drop_succ_cons, List.drop_zero, List.take_succ_cons, List.take_zero]; after_results_simp
theorem keepD_arg4 (W : Valuation τ sig (Elt F)) : after (sD (F := F)) W (Proc.devRef .tc main_arg4) = W (Proc.devRef .tc main_arg4) := by
  unfold sD; simp only [ops, List.drop_succ_cons, List.drop_zero, List.take_succ_cons, List.take_zero]; after_results
theorem keepD_arg5 (W : Valuation τ sig (Elt F)) : after (sD (F := F)) W (Proc.devRef .tc main_arg5) = W (Proc.devRef .tc main_arg5) := by
  unfold sD; simp only [ops, List.drop_succ_cons, List.drop_zero, List.take_succ_cons, List.take_zero]; after_results
theorem keepD_arg6 (W : Valuation τ sig (Elt F)) : after (sD (F := F)) W (Proc.devRef .tc main_arg6) = W (Proc.devRef .tc main_arg6) := by
  unfold sD; simp only [ops, List.drop_succ_cons, List.drop_zero, List.take_succ_cons, List.take_zero]; after_results
theorem keepD_arg7 (W : Valuation τ sig (Elt F)) : after (sD (F := F)) W (Proc.devRef .tc main_arg7) = W (Proc.devRef .tc main_arg7) := by
  unfold sD; simp only [ops, List.drop_succ_cons, List.drop_zero, List.take_succ_cons, List.take_zero]; after_results
theorem keepD_arg8 (W : Valuation τ sig (Elt F)) : after (sD (F := F)) W (Proc.devRef .tc main_arg8) = W (Proc.devRef .tc main_arg8) := by
  unfold sD; simp only [ops, List.drop_succ_cons, List.drop_zero, List.take_succ_cons, List.take_zero]; after_results
theorem keepE_arg4 (W : Valuation τ sig (Elt F)) : after (sE (F := F)) W (Proc.devRef .tc main_arg4) = W (Proc.devRef .tc main_arg4) := by
  unfold sE; simp only [ops, List.drop_succ_cons, List.drop_zero, List.take_succ_cons, List.take_zero]; after_results
theorem keepE_arg8 (W : Valuation τ sig (Elt F)) : after (sE (F := F)) W (Proc.devRef .tc main_arg8) = W (Proc.devRef .tc main_arg8) := by
  unfold sE; simp only [ops, List.drop_succ_cons, List.drop_zero, List.take_succ_cons, List.take_zero]; after_results
theorem keepF1_arg8 (W : Valuation τ sig (Elt F)) : after (sF1 (F := F)) W (Proc.devRef .tc main_arg8) = W (Proc.devRef .tc main_arg8) := by
  unfold sF1; simp only [ops, List.drop_succ_cons, List.drop_zero, List.take_succ_cons, List.take_zero]; after_results_simp
theorem keepF2a_arg8 (W : Valuation τ sig (Elt F)) : after (sF2a (F := F)) W (Proc.devRef .tc main_arg8) = W (Proc.devRef .tc main_arg8) := by
  unfold sF2a; simp only [ops, List.drop_succ_cons, List.drop_zero, List.take_succ_cons, List.take_zero]; after_results_simp
theorem keepF2b_arg8 (W : Valuation τ sig (Elt F)) : after (sF2b (F := F)) W (Proc.devRef .tc main_arg8) = W (Proc.devRef .tc main_arg8) := by
  unfold sF2b; simp only [ops, List.drop_succ_cons, List.drop_zero, List.take_succ_cons, List.take_zero]; after_results_simp
theorem keepF3_arg8 (W : Valuation τ sig (Elt F)) : after (sF3 (F := F)) W (Proc.devRef .tc main_arg8) = W (Proc.devRef .tc main_arg8) := by
  unfold sF3; simp only [ops, List.drop_succ_cons, List.drop_zero, List.take_succ_cons, List.take_zero]; after_results_simp
theorem keepF4_arg8 (W : Valuation τ sig (Elt F)) : after (sF4 (F := F)) W (Proc.devRef .tc main_arg8) = W (Proc.devRef .tc main_arg8) := by
  unfold sF4; simp only [ops, List.drop_succ_cons, List.drop_zero, List.take_succ_cons, List.take_zero]; after_results_simp
theorem keepF5_arg8 (W : Valuation τ sig (Elt F)) : after (sF5 (F := F)) W (Proc.devRef .tc main_arg8) = W (Proc.devRef .tc main_arg8) := by
  unfold sF5; simp only [ops, List.drop_succ_cons, List.drop_zero, List.take_succ_cons, List.take_zero]; after_results_simp

/-! ## The result -/

/-- The fold of the whole line at the result buffer is the forward pass of the nine arguments. -/
theorem fold_result (W : Valuation τ sig (Elt F)) :
    after (ops (F := F)) W (Proc.devRef .tc main_v42) = forward (W (Proc.devRef .tc main_arg0)) (W (Proc.devRef .tc main_arg1))
      (W (Proc.devRef .tc main_arg2)) (W (Proc.devRef .tc main_arg3)) (W (Proc.devRef .tc main_arg4)) (W (Proc.devRef .tc main_arg5))
      (W (Proc.devRef .tc main_arg6)) (W (Proc.devRef .tc main_arg7)) (W (Proc.devRef .tc main_arg8)) := by
  rw [fold_split, stageG, stageF, stageE, stageD, stageC, stageB, stageA]
  repeat (first | rw [keepA_arg2] | rw [keepA_arg3] | rw [keepA_arg4] | rw [keepA_arg5] | rw [keepA_arg6] | rw [keepA_arg7] | rw [keepA_arg8] | rw [keepB_arg2] | rw [keepB_arg3] | rw [keepB_arg4] | rw [keepB_arg5] | rw [keepB_arg6] | rw [keepB_arg7] | rw [keepB_arg8] | rw [keepC_arg3] | rw [keepC_arg4] | rw [keepC_arg5] | rw [keepC_arg6] | rw [keepC_arg7] | rw [keepC_arg8] | rw [keepD_arg4] | rw [keepD_arg5] | rw [keepD_arg6] | rw [keepD_arg7] | rw [keepD_arg8] | rw [keepE_arg4] | rw [keepE_arg8] | rw [keepF1_arg8] | rw [keepF2a_arg8] | rw [keepF2b_arg8] | rw [keepF3_arg8] | rw [keepF4_arg8] | rw [keepF5_arg8])
  rfl

/-! ## No operation of the line writes an argument -/

set_option maxHeartbeats 4000000 in
theorem fold_arg0 (W : Valuation τ sig (Elt F)) : after (ops (F := F)) W (Proc.devRef .tc main_arg0) = W (Proc.devRef .tc main_arg0) := by
  after_results_simp <;> rfl
set_option maxHeartbeats 4000000 in
theorem fold_arg1 (W : Valuation τ sig (Elt F)) : after (ops (F := F)) W (Proc.devRef .tc main_arg1) = W (Proc.devRef .tc main_arg1) := by
  after_results_simp <;> rfl
set_option maxHeartbeats 4000000 in
theorem fold_arg2 (W : Valuation τ sig (Elt F)) : after (ops (F := F)) W (Proc.devRef .tc main_arg2) = W (Proc.devRef .tc main_arg2) := by
  after_results_simp <;> rfl
set_option maxHeartbeats 4000000 in
theorem fold_arg3 (W : Valuation τ sig (Elt F)) : after (ops (F := F)) W (Proc.devRef .tc main_arg3) = W (Proc.devRef .tc main_arg3) := by
  after_results_simp <;> rfl
set_option maxHeartbeats 4000000 in
theorem fold_arg4 (W : Valuation τ sig (Elt F)) : after (ops (F := F)) W (Proc.devRef .tc main_arg4) = W (Proc.devRef .tc main_arg4) := by
  after_results_simp <;> rfl
set_option maxHeartbeats 4000000 in
theorem fold_arg5 (W : Valuation τ sig (Elt F)) : after (ops (F := F)) W (Proc.devRef .tc main_arg5) = W (Proc.devRef .tc main_arg5) := by
  after_results_simp <;> rfl
set_option maxHeartbeats 4000000 in
theorem fold_arg6 (W : Valuation τ sig (Elt F)) : after (ops (F := F)) W (Proc.devRef .tc main_arg6) = W (Proc.devRef .tc main_arg6) := by
  after_results_simp <;> rfl
set_option maxHeartbeats 4000000 in
theorem fold_arg7 (W : Valuation τ sig (Elt F)) : after (ops (F := F)) W (Proc.devRef .tc main_arg7) = W (Proc.devRef .tc main_arg7) := by
  after_results_simp <;> rfl
set_option maxHeartbeats 4000000 in
theorem fold_arg8 (W : Valuation τ sig (Elt F)) : after (ops (F := F)) W (Proc.devRef .tc main_arg8) = W (Proc.devRef .tc main_arg8) := by
  after_results_simp <;> rfl

/-! ## The run -/

/-- THE RUN, READ: every weakly fair execution of the reference's @main terminates with the result buffer at the forward
    pass of the launch contents of the arguments, and the arguments unchanged. -/
theorem run_forward (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v42)
        = forward (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c main_v42).trans (fold_result (launchContents m c)),
       (h c main_arg0).trans (fold_arg0 (launchContents m c)), (h c main_arg1).trans (fold_arg1 (launchContents m c)),
       (h c main_arg2).trans (fold_arg2 (launchContents m c)), (h c main_arg3).trans (fold_arg3 (launchContents m c)),
       (h c main_arg4).trans (fold_arg4 (launchContents m c)), (h c main_arg5).trans (fold_arg5 (launchContents m c)),
       (h c main_arg6).trans (fold_arg6 (launchContents m c)), (h c main_arg7).trans (fold_arg7 (launchContents m c)),
       (h c main_arg8).trans (fold_arg8 (launchContents m c))⟩)
    (run_seq scopedRefs_eq scopedSems_eq defs main (fun _ => ops) main_eq (fun _ => ops_sub) m ρ)

end Cert.ReferenceIdeal.Whole

end
-- ==== Proof.lean ====
/-
  The certificate of the two-layer graph convolution kernel against its jnp reference.

  The kernel computes `x · W1`, sums the weighted source rows into their destination rows, adds the first bias and clamps at
  zero, multiplies by `W2`, sums over the edges again, adds the second bias, takes each row's log-softmax and returns the
  rows `idx`. The two dense products, the bias-and-ReLU and the bias-and-log-softmax are tiled kernels over blocks of 1000
  rows; the edge sums and the row pick are host operations, the same ones the reference uses. The reference does the
  dense products, the ReLU and the log-softmax as host operations on whole arrays.

  On the extended reals both programs compute ONE function of the nine arguments, `Stages.forward`:
  * a block of 1000 rows of a dense product, of `max (a + b) 0` or of a row-wise log-softmax depends only on the same
    1000 rows of its left operand, so each tiled region's output array is the whole-array operation (a change of float
    format is the identity, a sum may be taken in any order, and `max (−∞) m = m`);
  * every weakly fair execution of the kernel's @main ends with every buffer at a fold through its seven segments, and
    that fold read at the result buffer, walked back segment by segment, is `Stages.forward` of the arguments;
  * the reference's @main is a straight line of host operations whose fold, read stretch by stretch, is the same
    `Stages.forward`.
  No step uses that the inputs are finite: the precondition is never opened. The idealization rewrote nothing, so
  `preserves` has nothing to state. The three frames are the runs with the result forgotten.
-/
import proofs.«110425_j50302656971586_1_alg».proof.Defs
import proofs.«110425_j50302656971586_1_alg».proof.Proof.Gen.Kernel
import proofs.«110425_j50302656971586_1_alg».proof.Proof.Gen.Kernel.Skeleton
import proofs.«110425_j50302656971586_1_alg».proof.Proof.Gen.Kernel.Launch
import proofs.«110425_j50302656971586_1_alg».proof.Proof.Gen.Kernel.Points
import proofs.«110425_j50302656971586_1_alg».proof.Proof.Gen.Kernel.Frame
import proofs.«110425_j50302656971586_1_alg».proof.Proof.Gen.KernelIdeal
import proofs.«110425_j50302656971586_1_alg».proof.Proof.Gen.KernelIdeal.Skeleton
import proofs.«110425_j50302656971586_1_alg».proof.Proof.Gen.KernelIdeal.Launch
import proofs.«110425_j50302656971586_1_alg».proof.Proof.Gen.KernelIdeal.Points
import proofs.«110425_j50302656971586_1_alg».proof.Proof.Gen.KernelIdeal.Frame
import proofs.«110425_j50302656971586_1_alg».proof.Proof.Gen.ReferenceIdeal
import proofs.«110425_j50302656971586_1_alg».proof.Proof.Gen.Pre_finite_inputs
import proofs.«110425_j50302656971586_1_alg».proof.Proof.KernelValue
import proofs.«110425_j50302656971586_1_alg».proof.Proof.ReferenceValue
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The idealized reference runs and leaves its arguments: its run read at the result, the result forgotten. -/
theorem frame_reference : Cert.frame_ReferenceIdeal := fun m ρ _ =>
  (θ_run Cert.ReferenceIdeal.defs _ _).mono (fun _ h c => (h c).2) (Cert.ReferenceIdeal.Whole.run_forward (F := Ideal) m ρ)

/-- The idealization rewrote no operation. -/
theorem preserves : Cert.preserves_Kernel_KernelIdeal := trivial

/-- From memories agreeing on the arguments both idealized programs end with the result buffer at the forward pass of
    those arguments. -/
theorem algebraic : Cert.algebraic_KernelIdeal_ReferenceIdeal := by
  intro m ρ m' ρ' _ hagree
  refine ⟨_, Cert.KernelIdeal.Whole.run_forward m ρ, ?_⟩
  refine (θ_run Cert.ReferenceIdeal.defs _ _).mono (fun _ h c => ⟨(h c).1.trans ?_, (h c).2⟩)
    (Cert.ReferenceIdeal.Whole.run_forward (F := Ideal) m' ρ')
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
